-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 76
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S128x128, .bf16⟩
  | .hbm, ⟨26, _⟩ => ⟨S128x128, .bf16⟩
  | .hbm, ⟨27, _⟩ => ⟨S128x128, .bf16⟩
  | .hbm, ⟨28, _⟩ => ⟨S128x128, .bf16⟩
  | .hbm, ⟨29, _⟩ => ⟨S128x64, .bf16⟩
  | .hbm, ⟨30, _⟩ => ⟨S128x64, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .bf16⟩
  | .hbm, ⟨60, _⟩ => ⟨S100000x64, .bf16⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .bf16⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .bf16⟩
  | .local _ .vmem, ⟨18, _⟩ => ⟨S128x128, .bf16⟩
  | .local _ .vmem, ⟨19, _⟩ => ⟨S128, .f32⟩
  | .local _ .vmem, ⟨20, _⟩ => ⟨S128x64, .bf16⟩
  | .local _ .vmem, ⟨21, _⟩ => ⟨S5000x128, .bf16⟩
  | .local _ .vmem, ⟨22, _⟩ => ⟨S5000x128, .bf16⟩
  | .local _ .vmem, ⟨23, _⟩ => ⟨S5000x64, .bf16⟩
  | .local _ .vmem, ⟨24, _⟩ => ⟨S5000x64, .bf16⟩
  | .local _ .vmem, ⟨25, _⟩ => ⟨S5000x128, .bf16⟩
  | .local _ .vmem, ⟨26, _⟩ => ⟨S5000x128, .bf16⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S128x64, .bf16⟩
  | .local _ .vmem, ⟨32, _⟩ => ⟨S64, .f32⟩
  | .local _ .vmem, ⟨33, _⟩ => ⟨S5000x64, .f32⟩
  | .local _ .vmem, ⟨34, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .bf16 = 32 ∨ (Rect.block (s := S128x64) S128x64.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .bf16 = 32 ∨ (Rect.block (s := S100000x128) S5000x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .bf16 = 32 ∨ (Rect.block (s := S100000x64) S5000x64.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v37_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v37_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  Every weakly fair execution of the program terminates without a fault, the argument arrays end as launched, and the
  result array ends holding what the last of the program's six stretches — three stretches of host operations and three
  tiled regions, alternating — leaves in it: the contents `W6 m ρ c` that the boundary-by-boundary fold of the stretches
  assigns to that buffer. The thread state after the last stretch holds every unscoped buffer at `W6`; the result buffer
  is one of them.
-/
import proofs.«119634_j12043088298174_2_alg».proof.Proof.PatchedKernelIdealFrame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- the run: the result array at the last boundary's contents, the arguments unchanged -/
theorem run_out : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunValue

end
-- ==== Proof.SageSpec.lean ====
/-
  A three-layer mean-aggregating graph network, written index by index over the extended reals.

  The graph has 100000 nodes and 1600000 edges; edge `e` goes from node `src e` to node `dst e`. A source index
  is first wrapped (a negative index has 100000 added to it) and then clamped into the node range when a row is read;
  a destination index outside the node range receives nothing. For a feature matrix `h`,

      nsum h n j  =  0 + ∑ over the edges e landing at n of h (source row of e) j

  is the neighbour sum, and `invDeg n = 1 / max (0 + ∑ over the edges landing at n of 1) 1` the reciprocal of the
  in-degree, at least one. One layer is

      layer h n j = (∑ k, h n k · Ws k j  +  ∑ k, (nsum h n k · invDeg n) · Wn k j)  +  b j,

  a hidden layer clamps it below at 0, and the network is two hidden layers followed by one plain layer of width 64.

  The dense part of a layer is first written over arbitrary matrices `a` (in place of the neighbour sum) and `d` (a
  column, in place of the reciprocal degree): that is what one tile-wise evaluation computes from the arrays it is given.
-/
import Idealize.ShloMosaic.PureOps.Ideal
import Idealize.ShloMosaic.Lib.ValueIdx
open scoped BigOperators
noncomputable section
namespace Cert.Sage
open Idealize.ShloMosaic Idealize.ShloMosaic.ValueIdx

/-- an `a × b` matrix of extended reals -/
abbrev Mat (a b : Nat) : Type := (⟨2, ![a, b]⟩ : Shape).Idx → EReal
/-- a vector of `a` extended reals -/
abbrev Row (a : Nat) : Type := (⟨1, ![a]⟩ : Shape).Idx → EReal
/-- one 32-bit integer per edge -/
abbrev EdgeVec : Type := IVec ⟨1, ![1600000]⟩ 32

/-- the row coordinate of a matrix index -/
abbrev rowOf {a b : Nat} (i : (⟨2, ![a, b]⟩ : Shape).Idx) : Fin a := ⟨(i 0).val, (i 0).isLt⟩
/-- the column coordinate of a matrix index -/
abbrev colOf {a b : Nat} (i : (⟨2, ![a, b]⟩ : Shape).Idx) : Fin b := ⟨(i 1).val, (i 1).isLt⟩

/-! ## The dense part of a layer, over given aggregate and scale arrays -/

/-- `(∑ k, h n k · Ws k j + ∑ k, (a n k · d n 0) · Wn k j) + b j` -/
def denseLayer {D : Nat} (h a : Mat 100000 128) (d : Mat 100000 1) (Ws Wn : Mat 128 D) (b : Row D)
    (n : Fin 100000) (j : Fin D) : EReal :=
  ((∑ k : Fin 128, h (ix2 n k) * Ws (ix2 k j))
    + (∑ k : Fin 128, (a (ix2 n k) * d (ix2 n (0 : Fin 1))) * Wn (ix2 k j))) + b (ix1 j)

/-- the dense part clamped below at zero, as a matrix -/
def denseHidden (h a : Mat 100000 128) (d : Mat 100000 1) (Ws Wn : Mat 128 128) (b : Row 128) : Mat 100000 128 :=
  fun i => max (denseLayer h a d Ws Wn b (rowOf i) (colOf i)) 0

theorem denseHidden_ix2 (h a : Mat 100000 128) (d : Mat 100000 1) (Ws Wn : Mat 128 128) (b : Row 128)
    (n : Fin 100000) (j : Fin 128) :
    denseHidden h a d Ws Wn b (ix2 n j) = max (denseLayer h a d Ws Wn b n j) 0 := rfl

/-- the product of a feature matrix with a weight matrix -/
def proj {D : Nat} (h : Mat 100000 128) (W : Mat 128 D) : Mat 100000 D :=
  fun i => ∑ k : Fin 128, h (ix2 (rowOf i) k) * W (ix2 k (colOf i))

theorem proj_ix2 {D : Nat} (h : Mat 100000 128) (W : Mat 128 D) (n : Fin 100000) (j : Fin D) :
    proj h W (ix2 n j) = ∑ k : Fin 128, h (ix2 n k) * W (ix2 k j) := rfl

/-- the last dense step when the aggregate `a` is already projected to width 64:
    `(∑ k, h n k · Ws k j + a n j · d n 0) + b j` -/
def denseOut (h : Mat 100000 128) (a : Mat 100000 64) (d : Mat 100000 1) (Ws : Mat 128 64) (b : Row 64) : Mat 100000 64 :=
  fun i => ((∑ k : Fin 128, h (ix2 (rowOf i) k) * Ws (ix2 k (colOf i)))
    + a (ix2 (rowOf i) (colOf i)) * d (ix2 (rowOf i) (0 : Fin 1))) + b (ix1 (colOf i))

theorem denseOut_ix2 (h : Mat 100000 128) (a : Mat 100000 64) (d : Mat 100000 1) (Ws : Mat 128 64) (b : Row 64)
    (n : Fin 100000) (j : Fin 64) :
    denseOut h a d Ws b (ix2 n j)
      = ((∑ k : Fin 128, h (ix2 n k) * Ws (ix2 k j)) + a (ix2 n j) * d (ix2 n (0 : Fin 1))) + b (ix1 j) := rfl

/-! ## The graph part -/

/-- a source index with a negative value wrapped round by the number of nodes -/
def wrapIdx (s : BitVec 32) : BitVec 32 :=
  Scalar.select (IntOp.cmpi .slt s 0#32) (IntOp.addi s 100000#32) s

/-- the row an edge reads: its wrapped source index, read signed and clamped into the node range -/
def srcRow (src : EdgeVec) (e : Fin 1600000) : Fin 100000 :=
  ⟨min (wrapIdx (src (ix1 e))).toInt.toNat (100000 - 1), by omega⟩

/-- the edges landing at node `n`: those whose destination index, read signed, is `n` -/
def landing (dst : EdgeVec) (n : Fin 100000) : Finset (Fin 1600000) :=
  Finset.univ.filter (fun e : Fin 1600000 => (dst (ix1 e)).toInt = (n.val : ℤ))

/-- the neighbour sum of feature `j` at node `n` -/
def nsum {D : Nat} (src dst : EdgeVec) (h : Mat 100000 D) (n : Fin 100000) (j : Fin D) : EReal :=
  0 + ∑ e ∈ landing dst n, h (ix2 (srcRow src e) j)

/-- the neighbour sums as a matrix -/
def nsumMat {D : Nat} (src dst : EdgeVec) (h : Mat 100000 D) : Mat 100000 D :=
  fun i => nsum src dst h (rowOf i) (colOf i)

theorem nsumMat_ix2 {D : Nat} (src dst : EdgeVec) (h : Mat 100000 D) (n : Fin 100000) (j : Fin D) :
    nsumMat src dst h (ix2 n j) = nsum src dst h n j := rfl

/-- the reciprocal of the in-degree of node `n`, the degree taken to be at least one -/
def invDeg (dst : EdgeVec) (n : Fin 100000) : EReal :=
  Ideal.div 1 (max (0 + ∑ _e ∈ landing dst n, (1 : EReal)) 1)

/-- the reciprocal degrees as a column -/
def invDegCol (dst : EdgeVec) : Mat 100000 1 := fun i => invDeg dst (rowOf i)

theorem invDegCol_ix2 (dst : EdgeVec) (n : Fin 100000) (u : Fin 1) : invDegCol dst (ix2 n u) = invDeg dst n := rfl

/-! ## The network -/

/-- a hidden layer of the network -/
def hidden (src dst : EdgeVec) (h : Mat 100000 128) (Ws Wn : Mat 128 128) (b : Row 128) : Mat 100000 128 :=
  denseHidden h (nsumMat src dst h) (invDegCol dst) Ws Wn b

/-- the last layer as the reference writes it: neighbour sum, scale, then project -/
def outLayer (src dst : EdgeVec) (h : Mat 100000 128) (Ws Wn : Mat 128 64) (b : Row 64) : Mat 100000 64 :=
  fun i => denseLayer h (nsumMat src dst h) (invDegCol dst) Ws Wn b (rowOf i) (colOf i)

theorem outLayer_ix2 (src dst : EdgeVec) (h : Mat 100000 128) (Ws Wn : Mat 128 64) (b : Row 64)
    (n : Fin 100000) (j : Fin 64) :
    outLayer src dst h Ws Wn b (ix2 n j) = denseLayer h (nsumMat src dst h) (invDegCol dst) Ws Wn b n j := rfl

/-- the last layer with the projection applied before the neighbour sum -/
def outLayerProjFirst (src dst : EdgeVec) (h : Mat 100000 128) (Ws Wn : Mat 128 64) (b : Row 64) : Mat 100000 64 :=
  denseOut h (nsumMat src dst (proj h Wn)) (invDegCol dst) Ws b

/-- the whole network as the reference writes it -/
def network (src dst : EdgeVec) (x : Mat 100000 128) (Ws0 Wn0 : Mat 128 128) (b0 : Row 128)
    (Ws1 Wn1 : Mat 128 128) (b1 : Row 128) (Ws2 Wn2 : Mat 128 64) (b2 : Row 64) : Mat 100000 64 :=
  outLayer src dst (hidden src dst (hidden src dst x Ws0 Wn0 b0) Ws1 Wn1 b1) Ws2 Wn2 b2

/-- the whole network with the last projection applied before the last neighbour sum -/
def networkProjFirst (src dst : EdgeVec) (x : Mat 100000 128) (Ws0 Wn0 : Mat 128 128) (b0 : Row 128)
    (Ws1 Wn1 : Mat 128 128) (b1 : Row 128) (Ws2 Wn2 : Mat 128 64) (b2 : Row 64) : Mat 100000 64 :=
  outLayerProjFirst src dst (hidden src dst (hidden src dst x Ws0 Wn0 b0) Ws1 Wn1 b1) Ws2 Wn2 b2

/-- every entry is a real number -/
def IsReal {α : Type} (f : α → EReal) : Prop := ∀ a, ∃ r : ℝ, f a = (r : EReal)

end Cert.Sage
end
-- ==== Proof.LibRowGatherScatter.lean ====
/-
  Row gather and accumulating row scatter, read at an index.

  For a matrix `x : [N, D]` and a column of integer indices `idx : [E, 1]`:

  * the row gather (offset axis 1 of the result, collapsed axis 0 of the operand, start index map `[0]`, index vector
    axis 1, slice sizes `[1, D]`) has at `(e, c)` the element of `x` in column `c` of row `idx[e, 0]`, the start
    index read as a signed integer and clamped into `[0, N - 1]`;
  * the row scatter (window axis 1 of the updates, inserted axis 0 of the operand, scatter map `[0]`, index vector
    axis 1) sends update element `(e, c)` to operand element `(idx[e, 0], c)`, the start index read as a signed integer
    and NOT clamped: the update is dropped when that row is outside `[0, N)`. With an adding body, operand element
    `(n, c)` therefore receives the sum of `upd (e, c)` over the `e` whose start index equals `n`.
-/
import Idealize.ShloMosaic.PureOps.Ideal
import Idealize.ShloMosaic.Lib.ValueIdx
open scoped BigOperators
noncomputable section
namespace Cert.RowOps
open Idealize.ShloMosaic Idealize.ShloMosaic.ValueIdx

/-- the dimension numbers of a row gather -/
abbrev rowGatherDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (e, c) -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N E D wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E D wf).start (ix2 e c) idx 0 + (rowGatherDims N E D wf).batchCoord (ix2 e c) 0
      + (rowGatherDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e c) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E D wf).start (ix2 e c) idx 1 + (rowGatherDims N E D wf).batchCoord (ix2 e c) 1
      + (rowGatherDims N E D wf).offCoord (ix2 e c) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- the dimension numbers of a row scatter -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Coordinates
variable {N E D w : Nat} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the start is the start index `idx[e, 0]` read signed. -/
theorem rowScatter_start0 :
    (rowScatterDims N E D wf).start (ix2 e c) idx (0 : Fin 2) = (idx (ix2 e (0 : Fin 1))).toInt := by
  unfold ScatterDims.start
  rw [dif_pos (show (0 : Fin 2) ∈ ([0] : List (Fin 2)) by decide)]
  have hsi : (rowScatterDims N E D wf).siIdx (ix2 e c) ⟨List.idxOf (0 : Fin 2) (rowScatterDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter map does not name, the start is 0. -/
theorem rowScatter_start1 : (rowScatterDims N E D wf).start (ix2 e c) idx (1 : Fin 2) = 0 := by
  unfold ScatterDims.start
  rw [dif_neg (show (1 : Fin 2) ∉ ([0] : List (Fin 2)) by decide)]

/-- The row axis is inserted: its window coordinate is 0. -/
theorem rowScatter_window0 : (rowScatterDims N E D wf).window (ix2 e c) (0 : Fin 2) = 0 := rfl

/-- The column axis carries the update's column. -/
theorem rowScatter_window1 : (rowScatterDims N E D wf).window (ix2 e c) (1 : Fin 2) = c.val := rfl

end Coordinates

/-- where update element (e, c) lands -/
theorem rowScatter_resultIdx_iff {N E D w : Nat} (wf : ScatterDims.WF ⟨2, ![N, D]⟩ ⟨2, ![E, 1]⟩ ⟨2, ![E, D]⟩ [1] [0] [0] 1)
    (idx : IVec ⟨2, ![E, 1]⟩ w) (e : Fin E) (c : Fin D) (n : Fin N) (c' : Fin D) :
    (rowScatterDims N E D wf).resultIdx? (ix2 e c) idx = some (ix2 n c') ↔ ((idx (ix2 e (0 : Fin 1))).toInt = (n.val : ℤ) ∧ c = c') := by
  have s0 := rowScatter_start0 wf idx e c
  have s1 := rowScatter_start1 wf idx e c
  have w0 := rowScatter_window0 wf e c
  have w1 := rowScatter_window1 wf e c
  unfold ScatterDims.resultIdx?
  split
  · rename_i h
    rw [Option.some.injEq]
    constructor
    · intro hEq
      have e0 : ((rowScatterDims N E D wf).start (ix2 e c) idx (0 : Fin 2)
          + ((rowScatterDims N E D wf).window (ix2 e c) (0 : Fin 2) : ℤ)).toNat = n.val :=
        congrArg Fin.val (congrFun hEq (0 : Fin 2))
      have e1 : ((rowScatterDims N E D wf).start (ix2 e c) idx (1 : Fin 2)
          + ((rowScatterDims N E D wf).window (ix2 e c) (1 : Fin 2) : ℤ)).toNat = c'.val :=
        congrArg Fin.val (congrFun hEq (1 : Fin 2))
      have h0 := (h (0 : Fin 2)).1
      rw [s0, w0] at e0 h0
      rw [s1, w1] at e1
      refine ⟨by omega, Fin.ext (by omega)⟩
    · rintro ⟨hn, rfl⟩
      funext a
      refine Fin.ext ?_
      match a with
      | ⟨0, _⟩ =>
        show ((rowScatterDims N E D wf).start (ix2 e c) idx (0 : Fin 2)
          + ((rowScatterDims N E D wf).window (ix2 e c) (0 : Fin 2) : ℤ)).toNat = n.val
        rw [s0, w0]; omega
      | ⟨1, _⟩ =>
        show ((rowScatterDims N E D wf).start (ix2 e c) idx (1 : Fin 2)
          + ((rowScatterDims N E D wf).window (ix2 e c) (1 : Fin 2) : ℤ)).toNat = c.val
        rw [s1, w1]; omega
  · rename_i h
    constructor
    · intro hEq; cases hEq
    · rintro ⟨hn, rfl⟩
      exfalso; apply h
      intro a
      match a with
      | ⟨0, _⟩ =>
        show 0 ≤ (rowScatterDims N E D wf).start (ix2 e c) idx (0 : Fin 2)
            + ((rowScatterDims N E D wf).window (ix2 e c) (0 : Fin 2) : ℤ)
          ∧ (rowScatterDims N E D wf).start (ix2 e c) idx (0 : Fin 2)
            + ((rowScatterDims N E D wf).window (ix2 e c) (0 : Fin 2) : ℤ) < (N : ℤ)
        rw [s0, w0]; have := n.isLt; omega
      | ⟨1, _⟩ =>
        show 0 ≤ (rowScatterDims N E D wf).start (ix2 e c) idx (1 : Fin 2)
            + ((rowScatterDims N E D wf).window (ix2 e c) (1 : Fin 2) : ℤ)
          ∧ (rowScatterDims N E D wf).start (ix2 e c) idx (1 : Fin 2)
            + ((rowScatterDims N E D wf).window (ix2 e c) (1 : Fin 2) : ℤ) < (D : ℤ)
        rw [s1, w1]; have := c.isLt; omega

/-- THE ACCUMULATING ROW SCATTER AT THE IDEAL INSTANCE READ AT (n, c) -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal) (n : Fin N) (c : Fin D) :
    Ideal.hostScatterAdd (rowScatterDims N E D wf) x idx upd (ix2 n c)
      = x (ix2 n c) + ∑ e ∈ Finset.univ.filter (fun e : Fin E => (idx (ix2 e (0 : Fin 1))).toInt = (n.val : ℤ)), upd (ix2 e c) := by
  unfold Ideal.hostScatterAdd
  congr 1
  rw [Finset.sum_filter, sum_idx2, Finset.sum_filter]
  refine Finset.sum_congr rfl fun e _ => ?_
  simp only [rowScatter_resultIdx_iff wf idx e _ n c]
  by_cases he : (idx (ix2 e (0 : Fin 1))).toInt = (n.val : ℤ)
  · simp only [he, true_and, if_true]
    rw [Finset.sum_ite_eq' Finset.univ c (fun c'' => upd (ix2 e c''))]
    simp
  · simp only [he, false_and, if_false]
    exact Finset.sum_const_zero
end Cert.RowOps
-- ==== Proof.LibVecGatherScatter.lean ====
/-
  Vector gather and accumulating vector scatter, read at an index.

  For a vector `x : [N]` and a column of integer indices `idx : [E, 1]`:

  * the gather (no offset axis, collapsed axis 0 of the operand, start index map `[0]`, index vector axis 1, slice
    sizes `[1]`) has at `e` the element of `x` at position `idx[e, 0]`, the start index read as a signed integer and
    clamped into `[0, N - 1]`;
  * the scatter (no window axis, inserted axis 0 of the operand, scatter map `[0]`, index vector axis 1) sends update
    element `e` to operand element `idx[e, 0]`, the start index read as a signed integer and NOT clamped: the update
    is dropped when that position is outside `[0, N)`. With an adding body, operand element `n` therefore receives
    the sum of `upd e` over the `e` whose start index equals `n`.
-/
import Idealize.ShloMosaic.PureOps.Ideal
import Idealize.ShloMosaic.Lib.ValueIdx
open scoped BigOperators
noncomputable section
namespace Cert.VecOps
open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- the dimension numbers of a vector gather `x[idx]` -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the operand at the start index `idx[e, 0]`, read signed and clamped into
    `[0, N - 1]`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- the dimension numbers of a vector scatter -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the start is the start index `idx[e, 0]` read signed. -/
theorem vecScatter_start0 :
    (vecScatterDims N E wf).start (ix1 e) idx (0 : Fin 1) = (idx (ix2 e (0 : Fin 1))).toInt := by
  unfold ScatterDims.start
  rw [dif_pos (show (0 : Fin 1) ∈ ([0] : List (Fin 1)) by decide)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: its window coordinate is 0. -/
theorem vecScatter_window0 : (vecScatterDims N E wf).window (ix1 e) (0 : Fin 1) = 0 := rfl

end Coordinates

/-- where update element e lands -/
theorem vecScatter_resultIdx_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e (0 : Fin 1))).toInt = (n.val : ℤ) := by
  have s0 := vecScatter_start0 wf idx e
  have w0 := vecScatter_window0 wf e
  unfold ScatterDims.resultIdx?
  split
  · rename_i h
    rw [Option.some.injEq]
    constructor
    · intro hEq
      have e0 : ((vecScatterDims N E wf).start (ix1 e) idx (0 : Fin 1)
          + ((vecScatterDims N E wf).window (ix1 e) (0 : Fin 1) : ℤ)).toNat = n.val :=
        congrArg Fin.val (congrFun hEq (0 : Fin 1))
      have h0 := (h (0 : Fin 1)).1
      rw [s0, w0] at e0 h0
      omega
    · intro hn
      funext a
      obtain rfl : a = 0 := Subsingleton.elim _ _
      refine Fin.ext ?_
      show ((vecScatterDims N E wf).start (ix1 e) idx (0 : Fin 1)
        + ((vecScatterDims N E wf).window (ix1 e) (0 : Fin 1) : ℤ)).toNat = n.val
      rw [s0, w0]; omega
  · rename_i h
    constructor
    · intro hEq; cases hEq
    · intro hn
      exfalso; apply h
      intro a
      obtain rfl : a = 0 := Subsingleton.elim _ _
      show 0 ≤ (vecScatterDims N E wf).start (ix1 e) idx (0 : Fin 1)
          + ((vecScatterDims N E wf).window (ix1 e) (0 : Fin 1) : ℤ)
        ∧ (vecScatterDims N E wf).start (ix1 e) idx (0 : Fin 1)
          + ((vecScatterDims N E wf).window (ix1 e) (0 : Fin 1) : ℤ) < (N : ℤ)
      rw [s0, w0]; have := n.isLt; omega

/-- THE ACCUMULATING VECTOR SCATTER AT THE IDEAL INSTANCE READ AT n -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, sum_idx1, Finset.sum_filter]
  refine Finset.sum_congr rfl fun e _ => ?_
  simp only [vecScatter_resultIdx_iff wf idx e n]
end Cert.VecOps
-- ==== Proof.SageOps.lean ====
/-
  The two aggregations of the graph network as compositions of a row gather and an accumulating scatter.

  Gathering row `srcRow e` of a feature matrix for every edge `e` and adding the gathered rows into the rows their
  destination indices name, starting from the zero matrix, leaves at `(n, j)` the neighbour sum `nsum h n j`:
  the scatter's entry is its start value plus the sum of the updates whose destination index is `n`, and update `(e, j)`
  is the gathered `h (srcRow e) j`. Scattering a one per edge in the same way counts the edges landing at `n`.
-/
import proofs.«119634_j12043088298174_2_alg».proof.Proof.SageSpec
import proofs.«119634_j12043088298174_2_alg».proof.Proof.LibRowGatherScatter
import proofs.«119634_j12043088298174_2_alg».proof.Proof.LibVecGatherScatter
open scoped BigOperators
noncomputable section
namespace Cert.Sage
open Idealize.ShloMosaic Idealize.ShloMosaic.ValueIdx

/-- one 32-bit integer per edge, as a column -/
abbrev EdgeCol : Type := IVec ⟨2, ![1600000, 1]⟩ 32

/-- gather the source rows, scatter-add them at the destination rows: the neighbour sum -/
theorem rowAgg_apply {D : Nat}
    (wfS : ScatterDims.WF ⟨2, ![100000, D]⟩ ⟨2, ![1600000, 1]⟩ ⟨2, ![1600000, D]⟩ [1] [0] [0] 1)
    (wfG : GatherDims.WF ⟨2, ![100000, D]⟩ ⟨2, ![1600000, 1]⟩ ⟨2, ![1600000, D]⟩ [1] [0] [] [0] [] 1 ![1, D])
    (z : Mat 100000 D) (hz : ∀ i, z i = 0) (scol dcol : EdgeCol) (src dst : EdgeVec)
    (hs : ∀ e : Fin 1600000, scol (ix2 e (0 : Fin 1)) = wrapIdx (src (ix1 e)))
    (hd : ∀ e : Fin 1600000, dcol (ix2 e (0 : Fin 1)) = dst (ix1 e))
    (h : Mat 100000 D) (n : Fin 100000) (j : Fin D) :
    Ideal.hostScatterAdd (Cert.RowOps.rowScatterDims 100000 1600000 D wfS) z dcol
        (Host.gather (Cert.RowOps.rowGatherDims 100000 1600000 D wfG) h scol) (ix2 n j)
      = nsum src dst h n j := by
  rw [Cert.RowOps.rowScatterAdd_apply wfS z dcol _ n j, hz]
  unfold nsum landing
  simp only [hd]
  refine congrArg (fun s => (0 : EReal) + s) (Finset.sum_congr rfl fun e _ => ?_)
  rw [Cert.RowOps.rowGather_apply (by omega) wfG h scol e j]
  refine congrArg (fun r : Fin 100000 => h (ix2 r j)) (Fin.ext ?_)
  show min (scol (ix2 e (0 : Fin 1))).toInt.toNat (100000 - 1) = min (wrapIdx (src (ix1 e))).toInt.toNat (100000 - 1)
  rw [hs e]

/-- scatter-add a one per edge at the destination positions: the in-degree -/
theorem degAgg_apply
    (wfS : ScatterDims.WF ⟨1, ![100000]⟩ ⟨2, ![1600000, 1]⟩ ⟨1, ![1600000]⟩ [] [0] [0] 1)
    (z : Row 100000) (hz : ∀ i, z i = 0) (ones : Row 1600000) (hones : ∀ i, ones i = 1)
    (dcol : EdgeCol) (dst : EdgeVec)
    (hd : ∀ e : Fin 1600000, dcol (ix2 e (0 : Fin 1)) = dst (ix1 e)) (n : Fin 100000) :
    Ideal.hostScatterAdd (Cert.VecOps.vecScatterDims 100000 1600000 wfS) z dcol ones (ix1 n)
      = 0 + ∑ _e ∈ landing dst n, (1 : EReal) := by
  rw [Cert.VecOps.vecScatterAdd_apply wfS z dcol ones n, hz]
  unfold landing
  simp only [hd, hones]

end Cert.Sage
end
-- ==== Proof.SageHostOps.lean ====
/-
  The host-side operations of the graph network, read at an index.

  The edge index vectors enter the aggregations as [1600000, 1] columns: a vector broadcast along a new unit axis, the
  source vector first wrapped (where it is negative, the number of nodes is added). A neighbour sum is the accumulating
  scatter, from the zero matrix, of the rows gathered at the wrapped source column into the rows the destination column
  names; the in-degree is the same scatter of a one per edge; the reciprocal degree is one over the larger of the degree
  and one. Every statement takes the operations' side conditions (broadcastability, the dimension records) as arbitrary
  proofs and records, so that it applies to whichever program spells the operation.
-/
import proofs.«119634_j12043088298174_2_alg».proof.Proof.SageOps
import Idealize.ShloMosaic.Lib.Pipeline.Value
import Idealize.ShloMosaic.PureOps.Ideal.Laws
open scoped BigOperators
noncomputable section
namespace Cert.Sage
open Idealize.ShloMosaic Idealize.ShloMosaic.ValueIdx

/-- the bit pattern of the float one denotes one -/
theorem ofBits_one_f32 : Ideal.ofBits .f32 0x3F800000#32 = 1 := by
  simp [Ideal.ofBits, Ideal.ieee, -EReal.coe_mul]; norm_num

/-- a scalar broadcast to any shape reads the scalar everywhere -/
theorem splat_apply {α : Type} {t : Shape} (h : (⟨0, ![]⟩ : Shape).BroadcastsInDim t ![]) (x : (⟨0, ![]⟩ : Shape).Idx → α) (i : t.Idx) :
    broadcastInDim t ![] h x i = x (fun a => a.elim0) :=
  broadcastInDim_apply _ h x i (fun a => a.elim0) (fun a => a.elim0)

/-- an edge vector broadcast to a column reads, at `(e, u)`, the vector at `e` -/
theorem edgeCol_apply {α : Type} (hb : (⟨1, ![1600000]⟩ : Shape).BroadcastsInDim ⟨2, ![1600000, 1]⟩ ![0])
    (x : (⟨1, ![1600000]⟩ : Shape).Idx → α) (e : Fin 1600000) (u : Fin 1) :
    broadcastInDim ⟨2, ![1600000, 1]⟩ ![0] hb x (ix2 e u) = x (ix1 e) :=
  broadcastInDim_apply _ hb x (ix2 e u) (ix1 e) (fun a => match a with
    | ⟨0, _⟩ => by show e.val = if (1600000 : Nat) = 1 then 0 else e.val; rw [if_neg (by decide)])

/-- the wrapped source column reads, at `(e, u)`, the wrapped source index of edge `e` -/
theorem wrapCol_apply (hb : (⟨1, ![1600000]⟩ : Shape).BroadcastsInDim ⟨2, ![1600000, 1]⟩ ![0])
    (h0 h1 : (⟨0, ![]⟩ : Shape).BroadcastsInDim ⟨1, ![1600000]⟩ ![]) (x : EdgeVec) (e : Fin 1600000) (u : Fin 1) :
    broadcastInDim ⟨2, ![1600000, 1]⟩ ![0] hb
        (select (cmpi .slt x (broadcastInDim ⟨1, ![1600000]⟩ ![] h0 (constantI ⟨0, ![]⟩ 32 0#32)))
          (addi x (broadcastInDim ⟨1, ![1600000]⟩ ![] h1 (constantI ⟨0, ![]⟩ 32 100000#32))) x) (ix2 e u)
      = wrapIdx (x (ix1 e)) := by
  rw [edgeCol_apply]
  rfl

/-- at the exact instance the host's accumulating scatter is the exact sum -/
theorem scatterAdd_ideal {s si u : Shape} {w : Nat} {φ : FTy} (d : ScatterDims s si u) (x : FVec Ideal s φ) (idx : IVec si w) (upd : FVec Ideal u φ) :
    Host.scatterAdd (F := Ideal) d x idx upd = Ideal.hostScatterAdd d x idx upd := rfl

/-- the neighbour sum as operations: gather at the source column, scatter-add from zero at the destination column -/
theorem aggOps_apply {D : Nat}
    (dS : ScatterDims ⟨2, ![100000, D]⟩ ⟨2, ![1600000, 1]⟩ ⟨2, ![1600000, D]⟩)
    (dG : GatherDims ⟨2, ![100000, D]⟩ ⟨2, ![1600000, 1]⟩ ⟨2, ![1600000, D]⟩)
    (wfS : ScatterDims.WF ⟨2, ![100000, D]⟩ ⟨2, ![1600000, 1]⟩ ⟨2, ![1600000, D]⟩ [1] [0] [0] 1)
    (wfG : GatherDims.WF ⟨2, ![100000, D]⟩ ⟨2, ![1600000, 1]⟩ ⟨2, ![1600000, D]⟩ [1] [0] [] [0] [] 1 ![1, D])
    (hdS : dS = Cert.RowOps.rowScatterDims 100000 1600000 D wfS) (hdG : dG = Cert.RowOps.rowGatherDims 100000 1600000 D wfG)
    (hz : (⟨0, ![]⟩ : Shape).BroadcastsInDim ⟨2, ![100000, D]⟩ ![])
    (scol dcol : EdgeCol) (src dst : EdgeVec)
    (hs : ∀ e : Fin 1600000, scol (ix2 e (0 : Fin 1)) = wrapIdx (src (ix1 e)))
    (hd : ∀ e : Fin 1600000, dcol (ix2 e (0 : Fin 1)) = dst (ix1 e))
    (h : Mat 100000 D) (n : Fin 100000) (j : Fin D) :
    Host.scatterAdd (F := Ideal) (φ := .f32) dS
        (broadcastInDim ⟨2, ![100000, D]⟩ ![] hz (constant (F := Ideal) ⟨0, ![]⟩ .f32 0x00000000#32)) dcol
        (Host.gather dG h scol) (ix2 n j)
      = nsum src dst h n j :=
  hdS ▸ hdG ▸ (congrFun (scatterAdd_ideal _ _ _ _) (ix2 n j)).trans
    (rowAgg_apply wfS wfG _ (fun i => (splat_apply hz _ i).trans Ideal.ofBits_zero_f32) scol dcol src dst hs hd h n j)

/-- one over the larger of a degree and one, from the three operands read at the node -/
theorem invDeg_of_deg (dst : EdgeVec) (A S C : Row 100000) (n : Fin 100000) (hA : A (ix1 n) = 1) (hC : C (ix1 n) = 1)
    (hS : S (ix1 n) = 0 + ∑ _e ∈ landing dst n, (1 : EReal)) :
    Host.divf (F := Ideal) (φ := .f32) A (maximumf (F := Ideal) (φ := .f32) S C) (ix1 n) = invDeg dst n := by
  show Ideal.div (A (ix1 n)) (max (S (ix1 n)) (C (ix1 n))) = _
  rw [hA, hC, hS]
  unfold invDeg
  rfl

/-- the reciprocal degree as operations -/
theorem invDegOps_apply
    (dS : ScatterDims ⟨1, ![100000]⟩ ⟨2, ![1600000, 1]⟩ ⟨1, ![1600000]⟩)
    (wfS : ScatterDims.WF ⟨1, ![100000]⟩ ⟨2, ![1600000, 1]⟩ ⟨1, ![1600000]⟩ [] [0] [0] 1)
    (hdS : dS = Cert.VecOps.vecScatterDims 100000 1600000 wfS)
    (hz h1 h2 : (⟨0, ![]⟩ : Shape).BroadcastsInDim ⟨1, ![100000]⟩ ![])
    (ho : (⟨0, ![]⟩ : Shape).BroadcastsInDim ⟨1, ![1600000]⟩ ![])
    (dcol : EdgeCol) (dst : EdgeVec)
    (hd : ∀ e : Fin 1600000, dcol (ix2 e (0 : Fin 1)) = dst (ix1 e)) (n : Fin 100000) :
    Host.divf (F := Ideal) (φ := .f32) (broadcastInDim ⟨1, ![100000]⟩ ![] h2 (constant (F := Ideal) ⟨0, ![]⟩ .f32 0x3F800000#32))
        (maximumf (F := Ideal) (φ := .f32)
          (Host.scatterAdd (F := Ideal) (φ := .f32) dS
            (broadcastInDim ⟨1, ![100000]⟩ ![] hz (constant (F := Ideal) ⟨0, ![]⟩ .f32 0x00000000#32)) dcol
            (broadcastInDim ⟨1, ![1600000]⟩ ![] ho (constant (F := Ideal) ⟨0, ![]⟩ .f32 0x3F800000#32)))
          (broadcastInDim ⟨1, ![100000]⟩ ![] h1 (constant (F := Ideal) ⟨0, ![]⟩ .f32 0x3F800000#32))) (ix1 n)
      = invDeg dst n :=
  invDeg_of_deg dst _ _ _ n ((splat_apply h2 _ _).trans ofBits_one_f32) ((splat_apply h1 _ _).trans ofBits_one_f32)
    (hdS ▸ (congrFun (scatterAdd_ideal _ _ _ _) (ix1 n)).trans
      (degAgg_apply wfS _ (fun i => (splat_apply hz _ i).trans Ideal.ofBits_zero_f32) _
        (fun i => (splat_apply ho _ i).trans ofBits_one_f32) dcol dst hd n))

end Cert.Sage
end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.TileLayer.lean ====
/-
  One tile of rows of a dense layer, read entry by entry.

  A tile holds 5000 rows. From a tile `h` of features, a tile `a` of neighbour sums, a column `d` of scales, two
  128 × 128 weight matrices and a bias row, the hidden-layer step computes at row `p` and column `q`

      max ((∑ k, h p k · Ws k q + ∑ k, (a p k · d p 0) · Wn k q) + b q) 0 .

  Over the extended reals a change of number format is the identity, the matrix unit's product into a zero accumulator
  is the sum over the contracted axis, a column broadcast along its rows reads the column's entry of the row, and a
  row broadcast over many rows reads the row's entry of the column; the step's arithmetic at one entry is therefore the
  formula above. The projected tile is that value contracted with a 128 × 64 weight matrix.
-/
import proofs.«119634_j12043088298174_2_alg».proof.Proof.Gen.KernelIdeal.Skeleton
import proofs.«119634_j12043088298174_2_alg».proof.Proof.LibMatmul
import proofs.«119634_j12043088298174_2_alg».proof.Proof.LibKeepdims
import Idealize.ShloMosaic.Lib.ValueLayout

open scoped BigOperators
noncomputable section
namespace Cert.Sage.Tile
open Idealize.ShloMosaic Idealize.ShloMosaic.ValueIdx Cert.KernelIdeal Cert.KernelIdeal.Gen

/-- the two contractions of the program are plain matrix products -/
theorem dot128 : dot_S5000x128_S128x128_S5000x128_1_0_0_1_n_n = DotDims.plain 5000 128 128 := rfl
theorem dot64 : dot_S5000x128_S128x64_S5000x64_1_0_0_1_n_n = DotDims.plain 5000 128 64 := rfl

/-- the hidden-layer step of one tile at row `p`, column `q` -/
def tileDense (h a : S5000x128.Idx → EReal) (d : S5000x1.Idx → EReal) (Ws Wn : S128x128.Idx → EReal)
    (b : S128.Idx → EReal) (p : Fin 5000) (q : Fin 128) : EReal :=
  max (((∑ k : Fin 128, h (ix2 p k) * Ws (ix2 k q))
    + (∑ k : Fin 128, (a (ix2 p k) * d (ix2 p (0 : Fin 1))) * Wn (ix2 k q))) + b (ix1 q)) 0

/-- The step's arithmetic, with the first operand already in the matrix unit's format, at one entry. -/
theorem hidden_core (h1 : FVec Ideal S5000x128 .bf16) (x1 : FVec Ideal S5000x128 .f32) (x2 : FVec Ideal S5000x1 .f32)
    (x3 x4 : FVec Ideal S128x128 .bf16) (x5 : FVec Ideal S128 .f32)
    (hb : S5000x1.Broadcasts S5000x128) (hc : S128.ShapeCasts S1x128) (hr : S1x128.Broadcasts S5000x128)
    (hlt : FTy.bits .bf16 < FTy.bits .f32) (p : Fin 5000) (q : Fin 128) :
    (truncf .bf16 (maximumf (addf (addf
        (matmul (F := Ideal) (DotDims.plain 5000 128 128) none h1 x3 (constant S5000x128 .f32 0x00000000#32))
        (matmul (F := Ideal) (DotDims.plain 5000 128 128) none
          (truncf .bf16 (mulf x1 (broadcastTo S5000x128 x2 hb)) hlt) x4 (constant S5000x128 .f32 0x00000000#32)))
        (broadcastTo S5000x128 (shapeCast S1x128 x5 hc) hr))
      (broadcast S5000x128 (Scalar.ofBits (F := Ideal) .f32 0x00000000#32))) hlt : FVec Ideal S5000x128 .bf16) (ix2 p q)
    = tileDense h1 x1 x2 x3 x4 x5 p q := by
  show max ((matmul (F := Ideal) (DotDims.plain 5000 128 128) none h1 x3 (constant S5000x128 .f32 0x00000000#32) (ix2 p q)
      + matmul (F := Ideal) (DotDims.plain 5000 128 128) none
          (truncf .bf16 (mulf x1 (broadcastTo S5000x128 x2 hb)) hlt) x4 (constant S5000x128 .f32 0x00000000#32) (ix2 p q))
      + broadcastTo S5000x128 (shapeCast S1x128 x5 hc) hr (ix2 p q)) (Ideal.ofBits .f32 0x00000000#32) = _
  rw [Cert.MatOps.matmul_plain_zero_apply, Cert.MatOps.matmul_plain_zero_apply, broadcastTo_1b_ab_apply,
    shapeCast_a_1a_apply, Ideal.ofBits_zero_f32]
  unfold tileDense
  refine congrArg (fun z => max ((_ + z) + _) 0) ?_
  refine Finset.sum_congr rfl fun k _ => ?_
  show (x1 (ix2 p k) * broadcastTo S5000x128 x2 hb (ix2 p k)) * x4 (ix2 k q) = _
  rw [Keepdims.broadcastTo_a1_ab_apply x2 hb p k (0 : Fin 1)]

/-- The first region's payload at one entry: its first operand is rounded to the matrix unit's format, which changes
    nothing over the extended reals. -/
theorem k0_pay1_apply (x0 : Vec Ideal S5000x128 .f32) (x1 : Vec Ideal S5000x128 .f32) (x2 : Vec Ideal S5000x1 .f32)
    (x3 x4 : Vec Ideal S128x128 .bf16) (x5 : Vec Ideal S128 .f32) (p : Fin 5000) (q : Fin 128) :
    k0_pay1 (F := Ideal) x0 x1 x2 x3 x4 x5 (ix2 p q) = tileDense x0 x1 x2 x3 x4 x5 p q := by
  unfold k0_pay1
  simp only [shapeCast_self, dot128]
  exact hidden_core (truncf .bf16 x0 Facts₀.bitsLt_bf16_f32) x1 x2 x3 x4 x5 _ _ _ _ p q

/-- The second region's first payload at one entry: the same step, its first operand already in that format. -/
theorem k1_pay1_apply (x0 : Vec Ideal S5000x128 .bf16) (x1 : Vec Ideal S5000x128 .f32) (x2 : Vec Ideal S5000x1 .f32)
    (x3 x4 : Vec Ideal S128x128 .bf16) (x5 : Vec Ideal S128 .f32) (p : Fin 5000) (q : Fin 128) :
    k1_pay1 (F := Ideal) x0 x1 x2 x3 x4 x5 (ix2 p q) = tileDense x0 x1 x2 x3 x4 x5 p q := by
  unfold k1_pay1
  simp only [shapeCast_self, dot128]
  exact hidden_core x0 x1 x2 x3 x4 x5 _ _ _ _ p q

/-- The second region's second payload at one entry: the step's value contracted with the 128 × 64 weights. -/
theorem k1_pay2_apply (x0 : Vec Ideal S5000x128 .bf16) (x1 : Vec Ideal S5000x128 .f32) (x2 : Vec Ideal S5000x1 .f32)
    (x3 x4 : Vec Ideal S128x128 .bf16) (x5 : Vec Ideal S128 .f32) (x6 : Vec Ideal S128x64 .bf16) (p : Fin 5000) (j : Fin 64) :
    k1_pay2 (F := Ideal) x0 x1 x2 x3 x4 x5 x6 (ix2 p j)
      = ∑ k : Fin 128, tileDense x0 x1 x2 x3 x4 x5 p k * x6 (ix2 k j) := by
  unfold k1_pay2
  simp only [shapeCast_self, dot64]
  show matmul (F := Ideal) (φ₁ := .bf16) (φ₂ := .bf16) (DotDims.plain 5000 128 64) none (k1_pay1 (F := Ideal) x0 x1 x2 x3 x4 x5) x6
      (constant S5000x64 .f32 0x00000000#32) (ix2 p j) = _
  rw [Cert.MatOps.matmul_plain_zero_apply]
  exact Finset.sum_congr rfl fun k _ => congrArg (· * x6 (ix2 k j)) (k1_pay1_apply x0 x1 x2 x3 x4 x5 p k)

/-- row `p` of tile `t` of twenty is row `5000·t + p` of the array -/
def tileRow (t : Nat) (ht : t < 20) (p : Fin 5000) : Fin 100000 := ⟨5000 * t + p.val, by have := p.isLt; omega⟩

theorem tileRow_val (t : Nat) (ht : t < 20) (p : Fin 5000) : (tileRow t ht p).val = 5000 * t + p.val := rfl

end Cert.Sage.Tile
end
-- ==== Proof.Region0Value.lean ====
/-
  The first tiled region's output array, entry by entry.

  The region runs over twenty tiles of 5000 rows. At tile `t` it reads rows `5000·t … 5000·t + 4999` of the feature,
  neighbour-sum and scale arrays, the whole weight matrices and the whole bias, and writes the hidden-layer step of
  those rows back to the same rows of its output. Row `n` of the output is therefore written by tile `n / 5000`, as
  its row `n − 5000·(n / 5000)`, and the array ends holding the hidden-layer step of the whole arrays.
-/
import proofs.«119634_j12043088298174_2_alg».proof.Proof.PatchedKernelIdealFrame
import proofs.«119634_j12043088298174_2_alg».proof.Proof.SageSpec
import proofs.«119634_j12043088298174_2_alg».proof.Proof.TileLayer
import Idealize.ShloMosaic.Lib.Pipeline.Value

open scoped BigOperators
noncomputable section
namespace Cert.Sage.K0
open Idealize.ShloMosaic Idealize.ShloMosaic.TcCoe Idealize.SL.Sem Idealize.ShloMosaic.ValueIdx
open Idealize.ShloMosaic.Pipeline (Dat)
open Cert.KernelIdeal Cert.KernelIdeal.Gen Cert.Sage Cert.Sage.Tile

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- a grid point is one of twenty -/
theorem point_lt (t : Fin cfg0.N) : t.val < 20 := lt_of_lt_of_eq t.isLt N_0

/-- The index maps over the grid: the row-tiled windows are at block `(t, 0)`, the weights and the bias at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The feature window's block at tile `t` is rows `5000·t …` of the feature array. -/
theorem blk0_read (c : Dev nD) (t : Fin cfg0.N) (p : Fin 5000) (k : Fin 128) :
    (iblk0 (F := Ideal) V c 0 t : S5000x128.Idx → EReal) (ix2 p k)
      = (V c main_arg0 : S100000x128.Idx → EReal) (ix2 (tileRow t.val (point_lt t) p) k) := by
  obtain ⟨e0, e1, -⟩ := idx_facts t
  unfold iblk0
  rw [View.read_apply]
  show (V c main_arg0 : S100000x128.Idx → EReal) _ = _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The neighbour-sum window's block at tile `t` is rows `5000·t …` of the neighbour-sum array. -/
theorem blk1_read (c : Dev nD) (t : Fin cfg0.N) (p : Fin 5000) (k : Fin 128) :
    (iblk0 (F := Ideal) V c 1 t : S5000x128.Idx → EReal) (ix2 p k)
      = (V c main_v24 : S100000x128.Idx → EReal) (ix2 (tileRow t.val (point_lt t) p) k) := by
  obtain ⟨-, -, e0, e1, -⟩ := idx_facts t
  unfold iblk0
  rw [View.read_apply]
  show (V c main_v24 : S100000x128.Idx → EReal) _ = _
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The scale window's block at tile `t` is rows `5000·t …` of the scale column. -/
theorem blk2_read (c : Dev nD) (t : Fin cfg0.N) (p : Fin 5000) (u : Fin 1) :
    (iblk0 (F := Ideal) V c 2 t : S5000x1.Idx → EReal) (ix2 p u)
      = (V c main_v8 : S100000x1.Idx → EReal) (ix2 (tileRow t.val (point_lt t) p) u) := by
  obtain ⟨-, -, -, -, e0, e1, -⟩ := idx_facts t
  unfold iblk0
  rw [View.read_apply]
  show (V c main_v8 : S100000x1.Idx → EReal) _ = _
  refine congrArg _ (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 1 + 1 * u.val = u.val; rw [e1]; omega

/-- The first weight window's block at every tile is the whole matrix. -/
theorem blk3_read (c : Dev nD) (t : Fin cfg0.N) (k : Fin 128) (q : Fin 128) :
    (iblk0 (F := Ideal) V c 3 t : S128x128.Idx → EReal) (ix2 k q)
      = (V c main_v9 : S128x128.Idx → EReal) (ix2 k q) := by
  obtain ⟨-, -, -, -, -, -, e0, e1, -⟩ := idx_facts t
  unfold iblk0
  rw [View.read_apply]
  show (V c main_v9 : S128x128.Idx → EReal) _ = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The second weight window's block at every tile is the whole matrix. -/
theorem blk4_read (c : Dev nD) (t : Fin cfg0.N) (k : Fin 128) (q : Fin 128) :
    (iblk0 (F := Ideal) V c 4 t : S128x128.Idx → EReal) (ix2 k q)
      = (V c main_v10 : S128x128.Idx → EReal) (ix2 k q) := by
  obtain ⟨-, -, -, -, -, -, -, -, e0, e1, -⟩ := idx_facts t
  unfold iblk0
  rw [View.read_apply]
  show (V c main_v10 : S128x128.Idx → EReal) _ = _
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias window's block at every tile is the whole bias. -/
theorem blk5_read (c : Dev nD) (t : Fin cfg0.N) (q : Fin 128) :
    (iblk0 (F := Ideal) V c 5 t : S128.Idx → EReal) (ix1 q) = (V c main_arg5 : S128.Idx → EReal) (ix1 q) := by
  obtain ⟨-, -, -, -, -, -, -, -, -, -, e0, -⟩ := idx_facts t
  unfold iblk0
  rw [View.read_apply]
  show (V c main_arg5 : S128.Idx → EReal) _ = _
  refine congrArg _ (funext fun a => Fin.ext ?_)
  match a with
  | ⟨0, _⟩ => show win0_5.index t (0 : Fin 1) * 128 + 1 * q.val = q.val; rw [e0]; omega

/-- Entry `(p, q)` of the output's block at tile `t` sits at `(5000·t + p, q)` in the output array. -/
theorem out_emb (t : Fin cfg0.N) (p : Fin 5000) (q : Fin 128) :
    ((cfg0.win 6).blk t).view.emb (ix2 p q) = (ix2 (tileRow t.val (point_lt t) p) q : S100000x128.Idx) := by
  obtain ⟨-, -, -, -, -, -, -, -, -, -, -, e0, e1⟩ := idx_facts t
  refine funext fun a => Fin.ext ?_
  match a with
  | ⟨0, _⟩ => show win0_6.index t (0 : Fin 2) * 5000 + 1 * p.val = 5000 * t.val + p.val; rw [e0]; omega
  | ⟨1, _⟩ => show win0_6.index t (1 : Fin 2) * 128 + 1 * q.val = q.val; rw [e1]; omega

/-- What tile `t` writes back is block `t` of the hidden-layer step of the arrays the region finds. -/
theorem flushed_eq (c : Dev nD) (t : Fin cfg0.N) :
    (dat0 (F := Ideal) V c).flushed 6 t = ((cfg0.win 6).blk t).view.read (Elt Ideal)
      (denseHidden (V c main_arg0) (V c main_v24) (V c main_v8) (V c main_v9) (V c main_v10) (V c main_arg5)) := by
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S128) hz1]
  funext j
  obtain ⟨p, q, rfl⟩ : ∃ (p : Fin 5000) (q : Fin 128), j = ix2 p q := ⟨j 0, j 1, eq_ix2 j⟩
  rw [View.read_apply, out_emb, denseHidden_ix2]
  show k0_pay1 (F := Ideal) (iblk0 V c 0 t) (iblk0 V c 1 t) (iblk0 V c 2 t) (iblk0 V c 3 t) (iblk0 V c 4 t) (iblk0 V c 5 t) (ix2 p q) = _
  refine (k0_pay1_apply (iblk0 V c 0 t) (iblk0 V c 1 t) (iblk0 V c 2 t) (iblk0 V c 3 t) (iblk0 V c 4 t) (iblk0 V c 5 t) p q).trans ?_
  unfold tileDense denseLayer
  rw [blk5_read V c t q]
  refine congrArg (fun s => max (s + _) 0) ?_
  refine congrArg₂ (· + ·) ?_ ?_
  · exact Finset.sum_congr rfl fun k _ => by rw [blk0_read V c t p k, blk3_read V c t k q]
  · exact Finset.sum_congr rfl fun k _ => by rw [blk1_read V c t p k, blk2_read V c t p 0, blk4_read V c t k q]

/-- An index of the output array is in tile `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25).slice (win0_6.rect t)).set ↔ _
  rw [View.set_slice_whole, Rect.mem_set_unit]
  exact Iff.rfl

/-- Row `r` of the output is in the block of tile `r / 5000`: the blocks cover the array. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the region: the hidden-layer step of the arrays the region finds. -/
theorem region0_out (c : Dev nD) : (dat0 (F := Ideal) V c).arrAt 6 cfg0.N
    = denseHidden (V c main_arg0) (V c main_v24) (V c main_v8) (V c main_v9) (V c main_v10) (V c main_arg5) :=
  (dat0 (F := Ideal) V c).arrAt_eq_of_cover 6 _ (fun t _ => flushed_eq V c t) cover

end Cert.Sage.K0
end
-- ==== Proof.KernelStretch0.lean ====
/-
  The first stretch of the idealized kernel: what its buffers hold when the first tiled region has finished.

  Before the region the host operations compute, from the launch contents of the argument arrays, the reciprocal in-degree
  of every node as a column, the neighbour sums of the input features, and copies of the six weight matrices (a change of
  float format, the identity on exact values). The region evaluates the first hidden layer tile by tile into its result
  array and leaves every other buffer as it found it. So after it the result array holds the first hidden layer of the
  network, and the degree column, the edge vectors, the later layers' weights and biases are still in place.
-/
import proofs.«119634_j12043088298174_2_alg».proof.Proof.PatchedKernelIdealFrame
import proofs.«119634_j12043088298174_2_alg».proof.Proof.SageHostOps
import proofs.«119634_j12043088298174_2_alg».proof.Proof.LibKeepdims
import proofs.«119634_j12043088298174_2_alg».proof.Proof.Region0Value
import Idealize.ShloMosaic.Lib.StableHlo.Run

set_option maxRecDepth 16384
open scoped BigOperators
noncomputable section

namespace Cert.Sage.KS0

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Before the region: the host operations' results, and the buffers they leave alone -/

theorem v1_arg0 : V1 m ρ c main_arg0 = m ((c : Thread nD τ).loc main_arg0) := by
  show StableHlo.after hostOps0 (W0 m ρ c) (Proc.devRef .tc main_arg0) = _
  unfold hostOps0
  after_results_simp
theorem v1_arg1 : V1 m ρ c main_arg1 = m ((c : Thread nD τ).loc main_arg1) := by
  show StableHlo.after hostOps0 (W0 m ρ c) (Proc.devRef .tc main_arg1) = _
  unfold hostOps0
  after_results_simp
theorem v1_arg2 : V1 m ρ c main_arg2 = m ((c : Thread nD τ).loc main_arg2) := by
  show StableHlo.after hostOps0 (W0 m ρ c) (Proc.devRef .tc main_arg2) = _
  unfold hostOps0
  after_results_simp
theorem v1_arg5 : V1 m ρ c main_arg5 = m ((c : Thread nD τ).loc main_arg5) := by
  show StableHlo.after hostOps0 (W0 m ρ c) (Proc.devRef .tc main_arg5) = _
  unfold hostOps0
  after_results_simp
theorem v1_arg8 : V1 m ρ c main_arg8 = m ((c : Thread nD τ).loc main_arg8) := by
  show StableHlo.after hostOps0 (W0 m ρ c) (Proc.devRef .tc main_arg8) = _
  unfold hostOps0
  after_results_simp
theorem v1_arg11 : V1 m ρ c main_arg11 = m ((c : Thread nD τ).loc main_arg11) := by
  show StableHlo.after hostOps0 (W0 m ρ c) (Proc.devRef .tc main_arg11) = _
  unfold hostOps0
  after_results_simp

/-- a weight matrix in the narrower float format is the same matrix of exact values -/
theorem v1_v9 : V1 m ρ c main_v9 = m ((c : Thread nD τ).loc main_arg3) := by
  show StableHlo.after hostOps0 (W0 m ρ c) (Proc.devRef .tc main_v9) = _
  unfold hostOps0
  after_results_simp
  rfl
theorem v1_v10 : V1 m ρ c main_v10 = m ((c : Thread nD τ).loc main_arg4) := by
  show StableHlo.after hostOps0 (W0 m ρ c) (Proc.devRef .tc main_v10) = _
  unfold hostOps0
  after_results_simp
  rfl
theorem v1_v11 : V1 m ρ c main_v11 = m ((c : Thread nD τ).loc main_arg6) := by
  show StableHlo.after hostOps0 (W0 m ρ c) (Proc.devRef .tc main_v11) = _
  unfold hostOps0
  after_results_simp
  rfl
theorem v1_v12 : V1 m ρ c main_v12 = m ((c : Thread nD τ).loc main_arg7) := by
  show StableHlo.after hostOps0 (W0 m ρ c) (Proc.devRef .tc main_v12) = _
  unfold hostOps0
  after_results_simp
  rfl
theorem v1_v13 : V1 m ρ c main_v13 = m ((c : Thread nD τ).loc main_arg9) := by
  show StableHlo.after hostOps0 (W0 m ρ c) (Proc.devRef .tc main_v13) = _
  unfold hostOps0
  after_results_simp
  rfl
theorem v1_v14 : V1 m ρ c main_v14 = m ((c : Thread nD τ).loc main_arg10) := by
  show StableHlo.after hostOps0 (W0 m ρ c) (Proc.devRef .tc main_v14) = _
  unfold hostOps0
  after_results_simp
  rfl

/-- the reciprocal degrees, as a column -/
theorem v1_v8 : (V1 m ρ c main_v8 : S100000x1.Idx → EReal) = invDegCol (m ((c : Thread nD τ).loc main_arg2)) := by
  show StableHlo.after hostOps0 (W0 m ρ c) (Proc.devRef .tc main_v8) = _
  unfold hostOps0
  after_results_simp
  funext i
  obtain ⟨n, u, rfl⟩ : ∃ (n : Fin 100000) (u : Fin 1), i = ix2 n u := ⟨i 0, i 1, eq_ix2 i⟩
  exact (Keepdims.shapeCast_a_a1_apply _ shapeCasts_S100000_S100000x1 n u).trans
    (invDegOps_apply _ scatter_S100000_S1600000x1_S1600000_n_0_0_1.wf rfl _ _ _ _ _ _
      (fun e => edgeCol_apply _ _ e 0) n)

/-- the neighbour sums of the input features -/
theorem v1_v24 : (V1 m ρ c main_v24 : S100000x128.Idx → EReal)
    = nsumMat (m ((c : Thread nD τ).loc main_arg1)) (m ((c : Thread nD τ).loc main_arg2)) (m ((c : Thread nD τ).loc main_arg0)) := by
  show StableHlo.after hostOps0 (W0 m ρ c) (Proc.devRef .tc main_v24) = _
  unfold hostOps0
  after_results_simp
  funext i
  obtain ⟨n, j, rfl⟩ : ∃ (n : Fin 100000) (j : Fin 128), i = ix2 n j := ⟨i 0, i 1, eq_ix2 i⟩
  exact aggOps_apply _ _ scatter_S100000x128_S1600000x1_S1600000x128_1_0_0_1.wf
    gather_S100000x128_S1600000x1_S1600000x128_1_0_n_n_0_1_1128.wf rfl rfl _ _ _ _ _
    (fun e => wrapCol_apply _ _ _ _ e 0) (fun e => edgeCol_apply _ _ e 0) _ n j

/-! ## After the region -/

/-- the region's result array: the first hidden layer -/
theorem w2_v25 : (W2 m ρ c (Proc.devRef .tc main_v25) : S100000x128.Idx → EReal)
    = hidden (m ((c : Thread nD τ).loc main_arg1)) (m ((c : Thread nD τ).loc main_arg2)) (m ((c : Thread nD τ).loc main_arg0))
        (m ((c : Thread nD τ).loc main_arg3)) (m ((c : Thread nD τ).loc main_arg4)) (m ((c : Thread nD τ).loc main_arg5)) := by
  refine (W2_arr m ρ c 6).trans ?_
  rw [Cert.Sage.K0.region0_out (V1 m ρ) c, v1_arg0, v1_v24, v1_v8, v1_v9, v1_v10, v1_arg5]
  rfl

/-- the degree column is one of the region's input arrays: it is left as it was -/
theorem w2_v8 : (W2 m ρ c (Proc.devRef .tc main_v8) : S100000x1.Idx → EReal) = invDegCol (m ((c : Thread nD τ).loc main_arg2)) :=
  ((W2_arr m ρ c 2).trans (((dat0 (V1 m ρ) c).arrAt_in 2 rfl _).trans (A_eq0 (V1 m ρ) c 2))).trans (v1_v8 m ρ c)

theorem w2_arg1 : W2 m ρ c (Proc.devRef .tc main_arg1) = m ((c : Thread nD τ).loc main_arg1) :=
  (W2_of_ne m ρ c main_arg1 (by decide)).trans (v1_arg1 m ρ c)
theorem w2_arg2 : W2 m ρ c (Proc.devRef .tc main_arg2) = m ((c : Thread nD τ).loc main_arg2) :=
  (W2_of_ne m ρ c main_arg2 (by decide)).trans (v1_arg2 m ρ c)
theorem w2_arg8 : W2 m ρ c (Proc.devRef .tc main_arg8) = m ((c : Thread nD τ).loc main_arg8) :=
  (W2_of_ne m ρ c main_arg8 (by decide)).trans (v1_arg8 m ρ c)
theorem w2_arg11 : W2 m ρ c (Proc.devRef .tc main_arg11) = m ((c : Thread nD τ).loc main_arg11) :=
  (W2_of_ne m ρ c main_arg11 (by decide)).trans (v1_arg11 m ρ c)
theorem w2_v11 : W2 m ρ c (Proc.devRef .tc main_v11) = m ((c : Thread nD τ).loc main_arg6) :=
  (W2_of_ne m ρ c main_v11 (by decide)).trans (v1_v11 m ρ c)
theorem w2_v12 : W2 m ρ c (Proc.devRef .tc main_v12) = m ((c : Thread nD τ).loc main_arg7) :=
  (W2_of_ne m ρ c main_v12 (by decide)).trans (v1_v12 m ρ c)
theorem w2_v13 : W2 m ρ c (Proc.devRef .tc main_v13) = m ((c : Thread nD τ).loc main_arg9) :=
  (W2_of_ne m ρ c main_v13 (by decide)).trans (v1_v13 m ρ c)
theorem w2_v14 : W2 m ρ c (Proc.devRef .tc main_v14) = m ((c : Thread nD τ).loc main_arg10) :=
  (W2_of_ne m ρ c main_v14 (by decide)).trans (v1_v14 m ρ c)

end Cert.Sage.KS0
end
-- ==== Proof.Region1Value.lean ====
/-
  The second hidden layer's dense step, tile by tile, is the dense step of the whole arrays.

  The second region runs over 20 row tiles of 5000 of the 100000 nodes. At tile t its body reads rows
  5000·t … 5000·t + 4999 of the feature array h (width 128), of the neighbour sums a (width 128) and of the
  reciprocal-degree column d, together with the whole weights Ws, Wn (128 × 128) and the whole bias b (128), and
  stores, at row p and column q of the first output's tile t,

      max ((∑ k, h(p, k) · Ws(k, q)  +  ∑ k, (a(p, k) · d(p, 0)) · Wn(k, q))  +  b(q)) 0 .

  Row p of tile t is row 5000·t + p of each array, so what tile t writes back is tile t of the clamped dense
  layer of the whole arrays; every row r lies in tile r / 5000, so the tiles cover the output array, which therefore
  ends holding the clamped dense layer of the arrays the region finds.
-/
import proofs.«119634_j12043088298174_2_alg».proof.Proof.PatchedKernelIdealFrame
import proofs.«119634_j12043088298174_2_alg».proof.Proof.SageSpec
import proofs.«119634_j12043088298174_2_alg».proof.Proof.LibMatmul
import proofs.«119634_j12043088298174_2_alg».proof.Proof.LibKeepdims
import proofs.«119634_j12043088298174_2_alg».proof.Proof.TileLayer
import Idealize.ShloMosaic.Lib.ValueLayout
import Idealize.ShloMosaic.Lib.Pipeline.Value

open scoped BigOperators
noncomputable section

namespace Cert.Sage.K1
open Idealize.ShloMosaic Idealize.ShloMosaic.ValueIdx Idealize.ShloMosaic.TcCoe
open Idealize.ShloMosaic.Pipeline (Dat)
open Cert.KernelIdeal Cert.KernelIdeal.Gen Cert.Sage

/-! ## The tiles of the arrays -/

theorem hz : (![0, 0] : Fin 2 → Nat) = fun _ => 0 := funext fun a => by fin_cases a <;> rfl
theorem hz1 : (![0] : Fin 1 → Nat) = fun _ => 0 := funext fun a => by fin_cases a <;> rfl

/-- The grid has 20 points. -/
theorem hN : cfg1.N = 20 := rfl

/-- The index maps over the grid: at point t the features, the neighbour sums, the reciprocal degrees and the first
    output are at row tile t; the two weights and the bias are whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_7.index t (0 : Fin 2) = t.val ∧ win1_7.index t (1 : Fin 2) = 0 :=
  (by decide +kernel : ∀ t : Fin grid1.N, _)

/-- Row p of tile t is row 5000·t + p of the whole array. -/
def rowAt (t : Fin cfg1.N) (p : Fin 5000) : Fin 100000 :=
  ⟨5000 * t.val + p.val, by have := t.isLt; have := hN; omega⟩

variable (V : (c : Dev nD) → (b : Ref sig .tc) → Buf (Elt Ideal) ((c : Thread nD τ).loc b)) (c : Dev nD)

/-- The feature tile at point t is rows 5000·t … of the feature array. -/
theorem blk0_apply (t : Fin cfg1.N) (p : Fin 5000) (k : Fin 128) :
    (iblk1 (F := Ideal) V c 0 t : Vec Ideal S5000x128 .bf16) (ix2 p k) = (V c main_v25 : Mat 100000 128) (ix2 (rowAt t p) k) := by
  obtain ⟨e0, e1, -⟩ := idx_facts t
  unfold iblk1
  rw [View.read_apply]
  show V c main_v25 _ = V c main_v25 _
  refine congrArg _ ?_
  funext a
  apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- The neighbour-sum tile at point t is rows 5000·t … of the neighbour-sum array. -/
theorem blk1_apply (t : Fin cfg1.N) (p : Fin 5000) (k : Fin 128) :
    (iblk1 (F := Ideal) V c 1 t : Vec Ideal S5000x128 .f32) (ix2 p k) = (V c main_v36 : Mat 100000 128) (ix2 (rowAt t p) k) := by
  obtain ⟨-, -, e0, e1, -⟩ := idx_facts t
  unfold iblk1
  rw [View.read_apply]
  show V c main_v36 _ = V c main_v36 _
  refine congrArg _ ?_
  funext a
  apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- The reciprocal-degree tile at point t is rows 5000·t … of the reciprocal-degree column. -/
theorem blk2_apply (t : Fin cfg1.N) (p : Fin 5000) (u : Fin 1) :
    (iblk1 (F := Ideal) V c 2 t : Vec Ideal S5000x1 .f32) (ix2 p u) = (V c main_v8 : Mat 100000 1) (ix2 (rowAt t p) u) := by
  obtain ⟨-, -, -, -, e0, e1, -⟩ := idx_facts t
  unfold iblk1
  rw [View.read_apply]
  show V c main_v8 _ = V c main_v8 _
  refine congrArg _ ?_
  funext a
  apply Fin.ext
  match a with
  | ⟨0, _⟩ => show win1_2.index t (0 : Fin 2) * 5000 + 1 * p.val = 5000 * t.val + p.val; omega
  | ⟨1, _⟩ => show win1_2.index t (1 : Fin 2) * 1 + 1 * u.val = u.val; omega

/-- The self weight's block at every point is the whole weight. -/
theorem blk3_apply (t : Fin cfg1.N) (k : Fin 128) (q : Fin 128) :
    (iblk1 (F := Ideal) V c 3 t : Vec Ideal S128x128 .bf16) (ix2 k q) = (V c main_v11 : Mat 128 128) (ix2 k q) := by
  obtain ⟨-, -, -, -, -, -, e0, e1, -⟩ := idx_facts t
  unfold iblk1
  rw [View.read_apply]
  show V c main_v11 _ = V c main_v11 _
  refine congrArg _ ?_
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

/-- The neighbour weight's block at every point is the whole weight. -/
theorem blk4_apply (t : Fin cfg1.N) (k : Fin 128) (q : Fin 128) :
    (iblk1 (F := Ideal) V c 4 t : Vec Ideal S128x128 .bf16) (ix2 k q) = (V c main_v12 : Mat 128 128) (ix2 k q) := by
  obtain ⟨-, -, -, -, -, -, -, -, e0, e1, -⟩ := idx_facts t
  unfold iblk1
  rw [View.read_apply]
  show V c main_v12 _ = V c main_v12 _
  refine congrArg _ ?_
  funext a
  apply Fin.ext
  match a with
  | ⟨0, _⟩ => show win1_4.index t (0 : Fin 2) * 128 + 1 * k.val = k.val; omega
  | ⟨1, _⟩ => show win1_4.index t (1 : Fin 2) * 128 + 1 * q.val = q.val; omega

/-- The bias's block at every point is the whole bias. -/
theorem blk5_apply (t : Fin cfg1.N) (q : Fin 128) :
    (iblk1 (F := Ideal) V c 5 t : Vec Ideal S128 .f32) (ix1 q) = (V c main_arg8 : Row 128) (ix1 q) := by
  obtain ⟨-, -, -, -, -, -, -, -, -, -, e0, -⟩ := idx_facts t
  unfold iblk1
  rw [View.read_apply]
  show V c main_arg8 _ = V c main_arg8 _
  refine congrArg _ ?_
  funext a
  apply Fin.ext
  match a with
  | ⟨0, _⟩ => show win1_5.index t (0 : Fin 1) * 128 + 1 * q.val = q.val; omega

/-- Entry (p, q) of the first output's tile at point t sits at (5000·t + p, q) in the output array. -/
theorem out_emb (t : Fin cfg1.N) (p : Fin 5000) (q : Fin 128) :
    ((cfg1.win 7).blk t).view.emb (ix2 p q) = (ix2 (rowAt t p) q : S100000x128.Idx) := by
  obtain ⟨-, -, -, -, -, -, -, -, -, -, -, e0, e1⟩ := idx_facts t
  funext a
  apply Fin.ext
  match a with
  | ⟨0, _⟩ => show win1_7.index t (0 : Fin 2) * 5000 + 1 * p.val = 5000 * t.val + p.val; omega
  | ⟨1, _⟩ => show win1_7.index t (1 : Fin 2) * 128 + 1 * q.val = q.val; omega

/-! ## From the tiles to the array -/

/-- What point t writes back to the first output is tile t of the clamped dense layer of the arrays the region finds. -/
theorem flushed_eq (t : Fin cfg1.N) :
    (dat1 (F := Ideal) V c).flushed 7 t = ((cfg1.win 7).blk t).view.read (Elt Ideal)
      (denseHidden (V c main_v25) (V c main_v36) (V c main_v8) (V c main_v11) (V c main_v12) (V c main_arg8)) := by
  show (cfg1.win 7).cut (grid1.coords t) ((dat1 (F := Ideal) V c).after 7 t) = _
  rw [after1_7]
  unfold out1_7
  rw [View.canon_unit_zero hz]
  simp only [View.ld_unit_zero (S := S5000x128) hz, View.ld_unit_zero (S := S5000x1) hz,
    View.ld_unit_zero (S := S128x128) hz, View.ld_unit_zero (S := S128) hz1]
  funext j
  obtain ⟨p, q, rfl⟩ : ∃ (p : Fin 5000) (q : Fin 128), j = ix2 p q := ⟨j 0, j 1, eq_ix2 j⟩
  rw [View.read_apply, out_emb, denseHidden_ix2]
  show k1_pay1 (F := Ideal) (iblk1 V c 0 t) (iblk1 V c 1 t) (iblk1 V c 2 t) (iblk1 V c 3 t) (iblk1 V c 4 t) (iblk1 V c 5 t) (ix2 p q) = _
  refine (Tile.k1_pay1_apply (iblk1 V c 0 t) (iblk1 V c 1 t) (iblk1 V c 2 t) (iblk1 V c 3 t) (iblk1 V c 4 t) (iblk1 V c 5 t) p q).trans ?_
  unfold Tile.tileDense denseLayer
  rw [blk5_apply]
  refine congrArg (fun s => max (s + _) 0) ?_
  refine congrArg₂ (· + ·) ?_ ?_
  · exact Finset.sum_congr rfl fun k _ => by rw [blk0_apply, blk3_apply]
  · exact Finset.sum_congr rfl fun k _ => by rw [blk1_apply, blk2_apply, blk4_apply]

/-- An index of the output array is in point t's tile iff each coordinate is in the tile's range on its axis. -/
theorem mem_blk (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v37_0).slice (win1_7.rect t)).set ↔ _
  rw [View.set_slice_whole, Rect.mem_set_unit]
  exact Iff.rfl

/-- Row r of the output is in the tile of point r / 5000: the tiles cover the array. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, -, e0, e1⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- THE FIRST OUTPUT ARRAY after the region: the clamped dense layer over the arrays the region finds. -/
theorem region1_out7 : (dat1 (F := Ideal) V c).arrAt 7 cfg1.N
    = denseHidden (V c main_v25) (V c main_v36) (V c main_v8) (V c main_v11) (V c main_v12) (V c main_arg8) :=
  (dat1 (F := Ideal) V c).arrAt_eq_of_cover 7 _ (fun t _ => flushed_eq V c t) cover

end Cert.Sage.K1
end
-- ==== Proof.Region1Out8.lean ====
/-
  The projected hidden layer, tile by tile, is the projection of the whole hidden layer.

  The second region runs over 20 row tiles of 5000 of the 100000 nodes. At tile `t` its body reads rows
  `5000·t … 5000·t + 4999` of the feature array `h`, of the neighbour sums `a` and of the reciprocal-degree column `d`,
  together with the whole weights `Ws`, `Wn` (128 × 128), the bias `b` (128) and the next layer's weight `W` (128 × 64).
  Its second store leaves, at row `p` and column `q` of the tile, the hidden value of row `p` contracted with column `q`
  of `W`:

      ∑ k, max ((∑ l, h p l · Ws l k + ∑ l, (a p l · d p 0) · Wn l k) + b k) 0 · W k q .

  The contraction runs over the 128 columns of one row, all inside the tile. Row `p` of tile `t` is row `5000·t + p` of
  each array, so what tile `t` writes back is tile `t` of `proj (denseHidden h a d Ws Wn b) W`; every row `r` lies in tile
  `r / 5000`, so the tiles cover the output array, which therefore ends holding that matrix.
-/
import proofs.«119634_j12043088298174_2_alg».proof.Proof.PatchedKernelIdealFrame
import proofs.«119634_j12043088298174_2_alg».proof.Proof.SageSpec
import proofs.«119634_j12043088298174_2_alg».proof.Proof.TileLayer
import Idealize.ShloMosaic.Lib.Pipeline.Value

open scoped BigOperators
noncomputable section

namespace Cert.Sage.K1b
open Idealize.ShloMosaic Idealize.ShloMosaic.ValueIdx Idealize.ShloMosaic.TcCoe
open Idealize.ShloMosaic.Pipeline (Dat)
open Cert.KernelIdeal Cert.KernelIdeal.Gen Cert.Sage

theorem hz : (![0, 0] : Fin 2 → Nat) = fun _ => 0 := funext fun a => by fin_cases a <;> rfl
theorem hz1 : (![0] : Fin 1 → Nat) = fun _ => 0 := funext fun a => by fin_cases a <;> rfl

/-- The grid has 20 points. -/
theorem hN : cfg1.N = 20 := rfl

/-- The index maps over the grid: at point `t` the features, the neighbour sums, the reciprocal degrees and the
    projected output are at row tile `t`; the three weights and the bias are whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_8.index t (0 : Fin 2) = t.val ∧ win1_8.index t (1 : Fin 2) = 0 :=
  (by decide +kernel : ∀ t : Fin grid1.N, _)

/-- Row `p` of tile `t` is row `5000·t + p` of the whole array. -/
def rowAt (t : Fin cfg1.N) (p : Fin 5000) : Fin 100000 :=
  ⟨5000 * t.val + p.val, by have := t.isLt; have := hN; omega⟩

variable (V : (c : Dev nD) → (b : Ref sig .tc) → Buf (Elt Ideal) ((c : Thread nD τ).loc b)) (c : Dev nD)

/-! ## The tiles of the arrays -/

/-- The feature tile at point `t` is rows `5000·t …` of the feature array. -/
theorem blk0_apply (t : Fin cfg1.N) (p : Fin 5000) (k : Fin 128) :
    (iblk1 (F := Ideal) V c 0 t : Vec Ideal S5000x128 .bf16) (ix2 p k) = (V c main_v25 : Mat 100000 128) (ix2 (rowAt t p) k) := by
  obtain ⟨e0, e1, -⟩ := idx_facts t
  unfold iblk1
  rw [View.read_apply]
  show V c main_v25 _ = V c main_v25 _
  refine congrArg _ ?_
  funext a
  apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- The neighbour-sum tile at point `t` is rows `5000·t …` of the neighbour sums. -/
theorem blk1_apply (t : Fin cfg1.N) (p : Fin 5000) (k : Fin 128) :
    (iblk1 (F := Ideal) V c 1 t : Vec Ideal S5000x128 .f32) (ix2 p k) = (V c main_v36 : Mat 100000 128) (ix2 (rowAt t p) k) := by
  obtain ⟨-, -, e0, e1, -⟩ := idx_facts t
  unfold iblk1
  rw [View.read_apply]
  show V c main_v36 _ = V c main_v36 _
  refine congrArg _ ?_
  funext a
  apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- The reciprocal-degree tile at point `t` is rows `5000·t …` of the reciprocal-degree column. -/
theorem blk2_apply (t : Fin cfg1.N) (p : Fin 5000) (u : Fin 1) :
    (iblk1 (F := Ideal) V c 2 t : Vec Ideal S5000x1 .f32) (ix2 p u) = (V c main_v8 : Mat 100000 1) (ix2 (rowAt t p) u) := by
  obtain ⟨-, -, -, -, e0, e1, -⟩ := idx_facts t
  unfold iblk1
  rw [View.read_apply]
  show V c main_v8 _ = V c main_v8 _
  refine congrArg _ ?_
  funext a
  apply Fin.ext
  match a with
  | ⟨0, _⟩ => show win1_2.index t (0 : Fin 2) * 5000 + 1 * p.val = 5000 * t.val + p.val; omega
  | ⟨1, _⟩ => show win1_2.index t (1 : Fin 2) * 1 + 1 * u.val = u.val; omega

/-- The self weight's block at every point is the whole weight. -/
theorem blk3_apply (t : Fin cfg1.N) (k : Fin 128) (q : Fin 128) :
    (iblk1 (F := Ideal) V c 3 t : Vec Ideal S128x128 .bf16) (ix2 k q) = (V c main_v11 : Mat 128 128) (ix2 k q) := by
  obtain ⟨-, -, -, -, -, -, e0, e1, -⟩ := idx_facts t
  unfold iblk1
  rw [View.read_apply]
  show V c main_v11 _ = V c main_v11 _
  refine congrArg _ ?_
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

/-- The neighbour weight's block at every point is the whole weight. -/
theorem blk4_apply (t : Fin cfg1.N) (k : Fin 128) (q : Fin 128) :
    (iblk1 (F := Ideal) V c 4 t : Vec Ideal S128x128 .bf16) (ix2 k q) = (V c main_v12 : Mat 128 128) (ix2 k q) := by
  obtain ⟨-, -, -, -, -, -, -, -, e0, e1, -⟩ := idx_facts t
  unfold iblk1
  rw [View.read_apply]
  show V c main_v12 _ = V c main_v12 _
  refine congrArg _ ?_
  funext a
  apply Fin.ext
  match a with
  | ⟨0, _⟩ => show win1_4.index t (0 : Fin 2) * 128 + 1 * k.val = k.val; omega
  | ⟨1, _⟩ => show win1_4.index t (1 : Fin 2) * 128 + 1 * q.val = q.val; omega

/-- The bias's block at every point is the whole bias. -/
theorem blk5_apply (t : Fin cfg1.N) (q : Fin 128) :
    (iblk1 (F := Ideal) V c 5 t : Vec Ideal S128 .f32) (ix1 q) = (V c main_arg8 : Row 128) (ix1 q) := by
  obtain ⟨-, -, -, -, -, -, -, -, -, -, e0, -⟩ := idx_facts t
  unfold iblk1
  rw [View.read_apply]
  show V c main_arg8 _ = V c main_arg8 _
  refine congrArg _ ?_
  funext a
  apply Fin.ext
  match a with
  | ⟨0, _⟩ => show win1_5.index t (0 : Fin 1) * 128 + 1 * q.val = q.val; omega

/-- The next layer's weight's block at every point is the whole weight. -/
theorem blk6_apply (t : Fin cfg1.N) (k : Fin 128) (q : Fin 64) :
    (iblk1 (F := Ideal) V c 6 t : Vec Ideal S128x64 .bf16) (ix2 k q) = (V c main_v14 : Mat 128 64) (ix2 k q) := by
  obtain ⟨-, -, -, -, -, -, -, -, -, -, -, e0, e1, -⟩ := idx_facts t
  unfold iblk1
  rw [View.read_apply]
  show V c main_v14 _ = V c main_v14 _
  refine congrArg _ ?_
  funext a
  apply Fin.ext
  match a with
  | ⟨0, _⟩ => show win1_6.index t (0 : Fin 2) * 128 + 1 * k.val = k.val; omega
  | ⟨1, _⟩ => show win1_6.index t (1 : Fin 2) * 64 + 1 * q.val = q.val; omega

/-- Entry `(p, q)` of the output's tile at point `t` sits at `(5000·t + p, q)` in the output array. -/
theorem out_emb (t : Fin cfg1.N) (p : Fin 5000) (q : Fin 64) :
    ((cfg1.win 8).blk t).view.emb (ix2 p q) = (ix2 (rowAt t p) q : S100000x64.Idx) := by
  obtain ⟨-, -, -, -, -, -, -, -, -, -, -, -, -, e0, e1⟩ := idx_facts t
  funext a
  apply Fin.ext
  match a with
  | ⟨0, _⟩ => show win1_8.index t (0 : Fin 2) * 5000 + 1 * p.val = 5000 * t.val + p.val; omega
  | ⟨1, _⟩ => show win1_8.index t (1 : Fin 2) * 64 + 1 * q.val = q.val; omega

/-- The hidden step of tile `t` at row `p` is the hidden layer of the whole arrays at row `5000·t + p`. -/
theorem tile_hidden (t : Fin cfg1.N) (p : Fin 5000) (k : Fin 128) :
    Tile.tileDense (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) p k
      = denseHidden (V c main_v25) (V c main_v36) (V c main_v8) (V c main_v11) (V c main_v12) (V c main_arg8) (ix2 (rowAt t p) k) := by
  rw [denseHidden_ix2]
  unfold Tile.tileDense denseLayer
  rw [blk2_apply, blk5_apply]
  refine congrArg₂ (fun x y => max ((x + y) + _) 0) ?_ ?_
  · exact Finset.sum_congr rfl fun l _ => by rw [blk0_apply, blk3_apply]
  · exact Finset.sum_congr rfl fun l _ => by rw [blk1_apply, blk4_apply]

/-! ## From the tiles to the array -/

/-- What point `t` writes back is tile `t` of the projected hidden layer of the arrays the region finds. -/
theorem flushed_eq (t : Fin cfg1.N) :
    (dat1 (F := Ideal) V c).flushed 8 t = ((cfg1.win 8).blk t).view.read (Elt Ideal)
      (proj (denseHidden (V c main_v25) (V c main_v36) (V c main_v8) (V c main_v11) (V c main_v12) (V c main_arg8)) (V c main_v14)) := by
  show (cfg1.win 8).cut (grid1.coords t) ((dat1 (F := Ideal) V c).after 8 t) = _
  rw [after1_8]
  unfold out1_8
  rw [View.canon_unit_zero hz]
  simp only [View.ld_unit_zero (S := S5000x128) hz, View.ld_unit_zero (S := S5000x1) hz, View.ld_unit_zero (S := S128x128) hz,
    View.ld_unit_zero (S := S128) hz1, View.ld_unit_zero (S := S128x64) hz]
  funext j
  obtain ⟨p, q, rfl⟩ : ∃ (p : Fin 5000) (q : Fin 64), j = ix2 p q := ⟨j 0, j 1, eq_ix2 j⟩
  rw [View.read_apply, out_emb, proj_ix2]
  show k1_pay2 (F := Ideal) (iblk1 V c 0 t) (iblk1 V c 1 t) (iblk1 V c 2 t) (iblk1 V c 3 t) (iblk1 V c 4 t) (iblk1 V c 5 t)
      (iblk1 V c 6 t) (ix2 p q) = _
  refine (Tile.k1_pay2_apply (iblk1 V c 0 t) (iblk1 V c 1 t) (iblk1 V c 2 t) (iblk1 V c 3 t) (iblk1 V c 4 t) (iblk1 V c 5 t)
      (iblk1 V c 6 t) p q).trans ?_
  exact Finset.sum_congr rfl fun k _ => by rw [tile_hidden, blk6_apply]

/-- An index of the output array is in point `t`'s tile iff each coordinate is in the tile's range on its axis. -/
theorem mem_blk (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v37_1).slice (win1_8.rect t)).set ↔ _
  rw [View.set_slice_whole, Rect.mem_set_unit]
  exact Iff.rfl

/-- Row `r` of the output is in the tile of point `r / 5000`: the tiles cover the array. -/
theorem cover (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, -, -, -, e0, e1⟩ := idx_facts t
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 64 ≤ (i 1).val ∧ (i 1).val < win1_8.index t (1 : Fin 2) * 64 + 64; omega

/-- THE PROJECTED OUTPUT ARRAY after the region: the hidden layer of the arrays the region finds, contracted with the
    next layer's neighbour weight. -/
theorem region1_out8 : (dat1 (F := Ideal) V c).arrAt 8 cfg1.N
    = proj (denseHidden (V c main_v25) (V c main_v36) (V c main_v8) (V c main_v11) (V c main_v12) (V c main_arg8)) (V c main_v14) :=
  (dat1 (F := Ideal) V c).arrAt_eq_of_cover 8 _ (fun t _ => flushed_eq V c t) cover

end Cert.Sage.K1b
end
-- ==== Proof.KernelStretch1.lean ====
/-
  The middle stretch of the idealized kernel: what its buffers hold when the second tiled region has finished.

  Between the first two regions the host operations compute the neighbour sums of the first hidden layer: the rows of
  the hidden layer gathered at the wrapped source column, widened to the wider float format (the identity on exact
  values), and added, from the zero matrix, into the rows the destination column names. They write no other buffer the
  later stretches read. The second region then evaluates, tile by tile, the second hidden layer into one result array and
  its product with the last layer's neighbour weight into another, and leaves every other buffer as it found it. So from
  the contents at the boundary after the first region — the hidden layer `H1`, the degree column `d`, the edge vectors,
  the weights and biases — the boundary after the second region holds the second hidden layer
  `denseHidden H1 (nsumMat src dst H1) d Ws Wn b`, its projection, and the degree column, the edge vectors and the last
  layer's self weight and bias still in place.
-/
import proofs.«119634_j12043088298174_2_alg».proof.Proof.PatchedKernelIdealFrame
import proofs.«119634_j12043088298174_2_alg».proof.Proof.SageHostOps
import proofs.«119634_j12043088298174_2_alg».proof.Proof.Region1Value
import proofs.«119634_j12043088298174_2_alg».proof.Proof.Region1Out8
import Idealize.ShloMosaic.Lib.StableHlo.Run

set_option maxRecDepth 16384
open scoped BigOperators
noncomputable section

namespace Cert.Sage.KS1

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Before the region: the host operations' result, and the buffers they leave alone -/

/-- a widening change of float format is the identity on exact values -/
theorem extf_id {s : Shape} {φ ψ : FTy} (a : FVec Ideal s φ) (h : φ.bits < ψ.bits) : (extf ψ a h : FVec Ideal s ψ) = a := rfl

theorem w3_v25 : W3 m ρ c (Proc.devRef .tc main_v25) = W2 m ρ c (Proc.devRef .tc main_v25) := by
  show StableHlo.after hostOps1 (W2 m ρ c) (Proc.devRef .tc main_v25) = _
  unfold hostOps1
  after_results_simp
theorem w3_v8 : W3 m ρ c (Proc.devRef .tc main_v8) = W2 m ρ c (Proc.devRef .tc main_v8) := by
  show StableHlo.after hostOps1 (W2 m ρ c) (Proc.devRef .tc main_v8) = _
  unfold hostOps1
  after_results_simp
theorem w3_v11 : W3 m ρ c (Proc.devRef .tc main_v11) = W2 m ρ c (Proc.devRef .tc main_v11) := by
  show StableHlo.after hostOps1 (W2 m ρ c) (Proc.devRef .tc main_v11) = _
  unfold hostOps1
  after_results_simp
theorem w3_v12 : W3 m ρ c (Proc.devRef .tc main_v12) = W2 m ρ c (Proc.devRef .tc main_v12) := by
  show StableHlo.after hostOps1 (W2 m ρ c) (Proc.devRef .tc main_v12) = _
  unfold hostOps1
  after_results_simp
theorem w3_arg8 : W3 m ρ c (Proc.devRef .tc main_arg8) = W2 m ρ c (Proc.devRef .tc main_arg8) := by
  show StableHlo.after hostOps1 (W2 m ρ c) (Proc.devRef .tc main_arg8) = _
  unfold hostOps1
  after_results_simp
theorem w3_v14 : W3 m ρ c (Proc.devRef .tc main_v14) = W2 m ρ c (Proc.devRef .tc main_v14) := by
  show StableHlo.after hostOps1 (W2 m ρ c) (Proc.devRef .tc main_v14) = _
  unfold hostOps1
  after_results_simp
theorem w3_arg1 : W3 m ρ c (Proc.devRef .tc main_arg1) = W2 m ρ c (Proc.devRef .tc main_arg1) := by
  show StableHlo.after hostOps1 (W2 m ρ c) (Proc.devRef .tc main_arg1) = _
  unfold hostOps1
  after_results_simp
theorem w3_arg2 : W3 m ρ c (Proc.devRef .tc main_arg2) = W2 m ρ c (Proc.devRef .tc main_arg2) := by
  show StableHlo.after hostOps1 (W2 m ρ c) (Proc.devRef .tc main_arg2) = _
  unfold hostOps1
  after_results_simp
theorem w3_v13 : W3 m ρ c (Proc.devRef .tc main_v13) = W2 m ρ c (Proc.devRef .tc main_v13) := by
  show StableHlo.after hostOps1 (W2 m ρ c) (Proc.devRef .tc main_v13) = _
  unfold hostOps1
  after_results_simp
theorem w3_arg11 : W3 m ρ c (Proc.devRef .tc main_arg11) = W2 m ρ c (Proc.devRef .tc main_arg11) := by
  show StableHlo.after hostOps1 (W2 m ρ c) (Proc.devRef .tc main_arg11) = _
  unfold hostOps1
  after_results_simp

/-- the neighbour sums of the hidden layer the first region left -/
theorem w3_v36 : (W3 m ρ c (Proc.devRef .tc main_v36) : S100000x128.Idx → EReal)
    = nsumMat (W2 m ρ c (Proc.devRef .tc main_arg1)) (W2 m ρ c (Proc.devRef .tc main_arg2)) (W2 m ρ c (Proc.devRef .tc main_v25)) := by
  show StableHlo.after hostOps1 (W2 m ρ c) (Proc.devRef .tc main_v36) = _
  unfold hostOps1
  after_results_simp
  rw [extf_id]
  funext i
  obtain ⟨n, j, rfl⟩ : ∃ (n : Fin 100000) (j : Fin 128), i = ix2 n j := ⟨i 0, i 1, eq_ix2 i⟩
  exact aggOps_apply _ _ scatter_S100000x128_S1600000x1_S1600000x128_1_0_0_1.wf
    gather_S100000x128_S1600000x1_S1600000x128_1_0_n_n_0_1_1128.wf rfl rfl _ _ _ _ _
    (fun e => wrapCol_apply _ _ _ _ e 0) (fun e => edgeCol_apply _ _ e 0) _ n j

/-! ## After the region -/

/-- From the contents at the boundary after the first region to those at the boundary after the second. -/
theorem w4_facts (H1 : Mat 100000 128) (src dst : EdgeVec) (d : Mat 100000 1) (Ws Wn : Mat 128 128) (b : Row 128)
    (Wn2 Ws2 : Mat 128 64) (b2 : Row 64)
    (h25 : W2 m ρ c (Proc.devRef .tc main_v25) = H1) (h8 : W2 m ρ c (Proc.devRef .tc main_v8) = d)
    (ha1 : W2 m ρ c (Proc.devRef .tc main_arg1) = src) (ha2 : W2 m ρ c (Proc.devRef .tc main_arg2) = dst)
    (h11 : W2 m ρ c (Proc.devRef .tc main_v11) = Ws) (h12 : W2 m ρ c (Proc.devRef .tc main_v12) = Wn)
    (ha8 : W2 m ρ c (Proc.devRef .tc main_arg8) = b) (h14 : W2 m ρ c (Proc.devRef .tc main_v14) = Wn2)
    (h13 : W2 m ρ c (Proc.devRef .tc main_v13) = Ws2) (ha11 : W2 m ρ c (Proc.devRef .tc main_arg11) = b2) :
    W4 m ρ c (Proc.devRef .tc main_v37_0) = denseHidden H1 (nsumMat src dst H1) d Ws Wn b
    ∧ W4 m ρ c (Proc.devRef .tc main_v37_1) = proj (denseHidden H1 (nsumMat src dst H1) d Ws Wn b) Wn2
    ∧ W4 m ρ c (Proc.devRef .tc main_v8) = d ∧ W4 m ρ c (Proc.devRef .tc main_arg1) = src
    ∧ W4 m ρ c (Proc.devRef .tc main_arg2) = dst
    ∧ W4 m ρ c (Proc.devRef .tc main_v13) = Ws2 ∧ W4 m ρ c (Proc.devRef .tc main_arg11) = b2 := by
  have e25 : V3 m ρ c main_v25 = H1 := (w3_v25 m ρ c).trans h25
  have e36 : (V3 m ρ c main_v36 : S100000x128.Idx → EReal) = nsumMat src dst H1 :=
    (w3_v36 m ρ c).trans (by rw [ha1, ha2, h25])
  have e8 : V3 m ρ c main_v8 = d := (w3_v8 m ρ c).trans h8
  have e11 : V3 m ρ c main_v11 = Ws := (w3_v11 m ρ c).trans h11
  have e12 : V3 m ρ c main_v12 = Wn := (w3_v12 m ρ c).trans h12
  have ea8 : V3 m ρ c main_arg8 = b := (w3_arg8 m ρ c).trans ha8
  have e14 : V3 m ρ c main_v14 = Wn2 := (w3_v14 m ρ c).trans h14
  refine ⟨?_, ?_, ?_, ?_, ?_, ?_, ?_⟩
  · refine (W4_arr m ρ c 7).trans ?_
    rw [Cert.Sage.K1.region1_out7 (V3 m ρ) c, e25, e36, e8, e11, e12, ea8]
  · refine (W4_arr m ρ c 8).trans ?_
    rw [Cert.Sage.K1b.region1_out8 (V3 m ρ) c, e25, e36, e8, e11, e12, ea8, e14]
  · exact ((W4_arr m ρ c 2).trans (((dat1 (V3 m ρ) c).arrAt_in 2 rfl _).trans (A_eq1 (V3 m ρ) c 2))).trans e8
  · exact ((W4_of_ne m ρ c main_arg1 (by decide)).trans (w3_arg1 m ρ c)).trans ha1
  · exact ((W4_of_ne m ρ c main_arg2 (by decide)).trans (w3_arg2 m ρ c)).trans ha2
  · exact ((W4_of_ne m ρ c main_v13 (by decide)).trans (w3_v13 m ρ c)).trans h13
  · exact ((W4_of_ne m ρ c main_arg11 (by decide)).trans (w3_arg11 m ρ c)).trans ha11

end Cert.Sage.KS1
end
-- ==== Proof.Region2Value.lean ====
/-
  The last layer's dense step, tile by tile, is the dense step of the whole arrays.

  The third region runs over 20 row tiles of 5000 of the 100000 nodes. At tile `t` its body reads rows
  `5000·t … 5000·t + 4999` of the feature array `h` (width 128), of the projected aggregate `a` (width 64) and of the
  reciprocal-degree column `d`, together with the whole weight `Ws` (128 × 64) and the whole bias `b` (64), and stores

      (h · Ws)(p, q)  +  a(p, q) · d(p, 0)  +  b(q)

  at row `p`, column `q` of the output's tile `t`. Read at an index, the product into the zero accumulator is the sum
  over the 128 contracted coordinates, the column `d` is copied along each row and the bias down the rows. Row `p` of
  tile `t` is row `5000·t + p` of each array, so what tile `t` writes back is tile `t` of `denseOut h a d Ws b`; every
  row `r` lies in tile `r / 5000`, so the tiles cover the output array, which therefore ends holding `denseOut h a d Ws b`.
-/
import proofs.«119634_j12043088298174_2_alg».proof.Proof.PatchedKernelIdealFrame
import proofs.«119634_j12043088298174_2_alg».proof.Proof.SageSpec
import proofs.«119634_j12043088298174_2_alg».proof.Proof.LibMatmul
import proofs.«119634_j12043088298174_2_alg».proof.Proof.LibKeepdims
import Idealize.ShloMosaic.Lib.ValueLayout
import Idealize.ShloMosaic.Lib.Pipeline.Value

open scoped BigOperators
noncomputable section

namespace Cert.Sage.K2
open Idealize.ShloMosaic Idealize.ShloMosaic.ValueIdx Idealize.ShloMosaic.TcCoe
open Idealize.ShloMosaic.Pipeline (Dat)
open Cert.KernelIdeal Cert.KernelIdeal.Gen Cert.Sage

/-! ## The tile's arithmetic at an index -/

/-- The matrix unit's dimension numbers are those of the plain product `[5000,128] · [128,64]`. -/
theorem dot_plain : dot_S5000x128_S128x64_S5000x64_1_0_0_1_n_n = DotDims.plain 5000 128 64 := rfl

/-- What the body stores, at row `p` and column `q` of the tile: the feature row times the weight column, plus the
    aggregate entry scaled by the row's reciprocal degree, plus the bias entry. The format changes and the casts to the
    same shape are the identity; the column `[5000,1]` is copied along each row, and the bias `[64]`, seen as one row
    `[1,64]`, is copied down the rows. -/
theorem pay_apply (x0 : Vec Ideal S5000x128 .bf16) (x1 : Vec Ideal S5000x64 .f32) (x2 : Vec Ideal S5000x1 .f32)
    (x3 : Vec Ideal S128x64 .bf16) (x4 : Vec Ideal S64 .f32) (p : Fin 5000) (q : Fin 64) :
    k2_pay1 (F := Ideal) x0 x1 x2 x3 x4 (ix2 p q)
      = ((∑ k : Fin 128, x0 (ix2 p k) * x3 (ix2 k q)) + x1 (ix2 p q) * x2 (ix2 p (0 : Fin 1))) + x4 (ix1 q) := by
  unfold k2_pay1
  simp only [shapeCast_self]
  show (matmul (F := Ideal) (DotDims.plain 5000 128 64) none x0 x3 (constant ⟨2, ![5000, 64]⟩ .f32 0x00000000#32) (ix2 p q)
      + x1 (ix2 p q) * broadcastTo S5000x64 x2 broadcasts_S5000x1_S5000x64 (ix2 p q))
      + broadcastTo S5000x64 (shapeCast S1x64 x4 shapeCasts_S64_S1x64) broadcasts_S1x64_S5000x64 (ix2 p q) = _
  rw [Cert.MatOps.matmul_plain_zero_apply, Keepdims.broadcastTo_a1_ab_apply x2 _ p q 0, broadcastTo_1b_ab_apply, shapeCast_a_1a_apply]

/-! ## The tiles of the arrays -/

theorem hz : (![0, 0] : Fin 2 → Nat) = fun _ => 0 := funext fun a => by fin_cases a <;> rfl
theorem hz1 : (![0] : Fin 1 → Nat) = fun _ => 0 := funext fun a => by fin_cases a <;> rfl

/-- The grid has 20 points. -/
theorem hN : cfg2.N = 20 := rfl

/-- The index maps over the grid: at point `t` the features, the aggregate, the reciprocal degrees and the output are
    at row tile `t`; the weight and the bias are whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row `p` of tile `t` is row `5000·t + p` of the whole array. -/
def rowAt (t : Fin cfg2.N) (p : Fin 5000) : Fin 100000 :=
  ⟨5000 * t.val + p.val, by have := t.isLt; have := hN; omega⟩

variable (V : (c : Dev nD) → (b : Ref sig .tc) → Buf (Elt Ideal) ((c : Thread nD τ).loc b)) (c : Dev nD)

/-- The feature tile at point `t` is rows `5000·t …` of the feature array. -/
theorem blk0_apply (t : Fin cfg2.N) (p : Fin 5000) (k : Fin 128) :
    (iblk2 (F := Ideal) V c 0 t : Vec Ideal S5000x128 .bf16) (ix2 p k) = (V c main_v37_0 : Mat 100000 128) (ix2 (rowAt t p) k) := by
  obtain ⟨e0, e1, -⟩ := idx_facts t
  unfold iblk2
  rw [View.read_apply]
  show V c main_v37_0 _ = V c main_v37_0 _
  refine congrArg _ ?_
  funext a
  apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega

/-- The aggregate tile at point `t` is rows `5000·t …` of the aggregate array. -/
theorem blk1_apply (t : Fin cfg2.N) (p : Fin 5000) (q : Fin 64) :
    (iblk2 (F := Ideal) V c 1 t : Vec Ideal S5000x64 .f32) (ix2 p q) = (V c main_v48 : Mat 100000 64) (ix2 (rowAt t p) q) := by
  obtain ⟨-, -, e0, e1, -⟩ := idx_facts t
  unfold iblk2
  rw [View.read_apply]
  show V c main_v48 _ = V c main_v48 _
  refine congrArg _ ?_
  funext a
  apply Fin.ext
  match a with
  | ⟨0, _⟩ => show win2_1.index t (0 : Fin 2) * 5000 + 1 * p.val = 5000 * t.val + p.val; omega
  | ⟨1, _⟩ => show win2_1.index t (1 : Fin 2) * 64 + 1 * q.val = q.val; omega

/-- The reciprocal-degree tile at point `t` is rows `5000·t …` of the reciprocal-degree column. -/
theorem blk2_apply (t : Fin cfg2.N) (p : Fin 5000) (u : Fin 1) :
    (iblk2 (F := Ideal) V c 2 t : Vec Ideal S5000x1 .f32) (ix2 p u) = (V c main_v8 : Mat 100000 1) (ix2 (rowAt t p) u) := by
  obtain ⟨-, -, -, -, e0, e1, -⟩ := idx_facts t
  unfold iblk2
  rw [View.read_apply]
  show V c main_v8 _ = V c main_v8 _
  refine congrArg _ ?_
  funext a
  apply Fin.ext
  match a with
  | ⟨0, _⟩ => show win2_2.index t (0 : Fin 2) * 5000 + 1 * p.val = 5000 * t.val + p.val; omega
  | ⟨1, _⟩ => show win2_2.index t (1 : Fin 2) * 1 + 1 * u.val = u.val; omega

/-- The weight's block at every point is the whole weight. -/
theorem blk3_apply (t : Fin cfg2.N) (k : Fin 128) (q : Fin 64) :
    (iblk2 (F := Ideal) V c 3 t : Vec Ideal S128x64 .bf16) (ix2 k q) = (V c main_v13 : Mat 128 64) (ix2 k q) := by
  obtain ⟨-, -, -, -, -, -, e0, e1, -⟩ := idx_facts t
  unfold iblk2
  rw [View.read_apply]
  show V c main_v13 _ = V c main_v13 _
  refine congrArg _ ?_
  funext a
  apply Fin.ext
  match a with
  | ⟨0, _⟩ => show win2_3.index t (0 : Fin 2) * 128 + 1 * k.val = k.val; omega
  | ⟨1, _⟩ => show win2_3.index t (1 : Fin 2) * 64 + 1 * q.val = q.val; omega

/-- The bias's block at every point is the whole bias. -/
theorem blk4_apply (t : Fin cfg2.N) (q : Fin 64) :
    (iblk2 (F := Ideal) V c 4 t : Vec Ideal S64 .f32) (ix1 q) = (V c main_arg11 : Row 64) (ix1 q) := by
  obtain ⟨-, -, -, -, -, -, -, -, e0, -⟩ := idx_facts t
  unfold iblk2
  rw [View.read_apply]
  show V c main_arg11 _ = V c main_arg11 _
  refine congrArg _ ?_
  funext a
  apply Fin.ext
  match a with
  | ⟨0, _⟩ => show win2_4.index t (0 : Fin 1) * 64 + 1 * q.val = q.val; omega

/-- Entry `(p, q)` of the output's tile at point `t` sits at `(5000·t + p, q)` in the output array. -/
theorem out_emb (t : Fin cfg2.N) (p : Fin 5000) (q : Fin 64) :
    ((cfg2.win 5).blk t).view.emb (ix2 p q) = (ix2 (rowAt t p) q : S100000x64.Idx) := by
  obtain ⟨-, -, -, -, -, -, -, -, -, e0, e1⟩ := idx_facts t
  funext a
  apply Fin.ext
  match a with
  | ⟨0, _⟩ => show win2_5.index t (0 : Fin 2) * 5000 + 1 * p.val = 5000 * t.val + p.val; omega
  | ⟨1, _⟩ => show win2_5.index t (1 : Fin 2) * 64 + 1 * q.val = q.val; omega

/-! ## From the tiles to the array -/

/-- What point `t` writes back is tile `t` of the dense step of the arrays the region finds. -/
theorem flushed_eq (t : Fin cfg2.N) :
    (dat2 (F := Ideal) V c).flushed 5 t = ((cfg2.win 5).blk t).view.read (Elt Ideal)
      (denseOut (V c main_v37_0) (V c main_v48) (V c main_v8) (V c main_v13) (V c main_arg11)) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S5000x64) hz, View.ld_unit_zero (S := S5000x1) hz,
    View.ld_unit_zero (S := S128x64) hz, View.ld_unit_zero (S := S64) hz1]
  funext j
  obtain ⟨p, q, rfl⟩ : ∃ (p : Fin 5000) (q : Fin 64), j = ix2 p q := ⟨j 0, j 1, eq_ix2 j⟩
  rw [View.read_apply, out_emb, denseOut_ix2]
  show k2_pay1 (F := Ideal) (iblk2 V c 0 t) (iblk2 V c 1 t) (iblk2 V c 2 t) (iblk2 V c 3 t) (iblk2 V c 4 t) (ix2 p q) = _
  refine (pay_apply (iblk2 V c 0 t) (iblk2 V c 1 t) (iblk2 V c 2 t) (iblk2 V c 3 t) (iblk2 V c 4 t) p q).trans ?_
  rw [blk1_apply, blk2_apply, blk4_apply]
  refine congrArg (fun s => s + _ + _) ?_
  exact Finset.sum_congr rfl fun k _ => by rw [blk0_apply, blk3_apply]

/-- An index of the output array is in point `t`'s tile iff each coordinate is in the tile's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v49).slice (win2_5.rect t)).set ↔ _
  rw [View.set_slice_whole, Rect.mem_set_unit]
  exact Iff.rfl

/-- Row `r` of the output is in the tile of point `r / 5000`: the tiles cover the array. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 5000 := ⟨⟨(i 0).val / 5000, by rw [hN]; omega⟩, rfl⟩
  obtain ⟨-, -, -, -, -, -, -, -, -, e0, e1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE OUTPUT ARRAY after the region: the dense step of the last layer, over the arrays the region finds. -/
theorem region2_out : (dat2 (F := Ideal) V c).arrAt 5 cfg2.N
    = denseOut (V c main_v37_0) (V c main_v48) (V c main_v8) (V c main_v13) (V c main_arg11) :=
  (dat2 (F := Ideal) V c).arrAt_eq_of_cover 5 _ (fun t _ => flushed_eq V c t) cover

end Cert.Sage.K2
end
-- ==== Proof.KernelStretch2.lean ====
/-
  The last stretch of host operations and the last tiled region, read together.

  Between the second and the third tiled region the program wraps the source indices (a negative index has the number of
  nodes added), spreads the wrapped source vector and the destination vector into columns, gathers the rows of the
  projected features at the source column, and adds the gathered rows, from the zero matrix, into the rows the destination
  column names. That leaves the neighbour sums of the projected features in one buffer and every other buffer as it was.
  The third region then computes the last layer's dense step from the arrays it finds, so the result array ends holding
  the dense step of the hidden features, those neighbour sums, the scale column, the weights and the bias.
-/
import proofs.«119634_j12043088298174_2_alg».proof.Proof.PatchedKernelIdealFrame
import proofs.«119634_j12043088298174_2_alg».proof.Proof.SageHostOps
import proofs.«119634_j12043088298174_2_alg».proof.Proof.Region2Value
import Idealize.ShloMosaic.Lib.StableHlo.Run

open scoped BigOperators
noncomputable section
namespace Cert.Sage.KS2
open Idealize.ShloMosaic Idealize.ShloMosaic.TcCoe Idealize.ShloMosaic.ValueIdx
open Cert.KernelIdeal Cert.KernelIdeal.Gen Cert.Sage

/-- The stretch's operations on the projected features, the source vector and the destination vector are the
    neighbour sums of the projected features. -/
theorem agg64 (M2 : Mat 100000 64) (src dst : EdgeVec) :
    (Host.scatterAdd (F := Ideal) (φ := .f32) scatter_S100000x64_S1600000x1_S1600000x64_1_0_0_1
      (broadcastInDim S100000x64 ![] Facts₀.bcast_S_S100000x64 (constant (F := Ideal) S_ .f32 0x00000000#32))
      (broadcastInDim S1600000x1 ![0] Facts₀.bcast_S1600000_S1600000x1_0 dst)
      (extf (F := Ideal) .f32 (Host.gather gather_S100000x64_S1600000x1_S1600000x64_1_0_n_n_0_1_164 (M2 : FVec Ideal S100000x64 .bf16)
        (broadcastInDim S1600000x1 ![0] Facts₀.bcast_S1600000_S1600000x1_0
          (select (cmpi .slt src (broadcastInDim S1600000 ![] Facts₀.bcast_S_S1600000 (constantI S_ 32 0#32)))
            (addi src (broadcastInDim S1600000 ![] Facts₀.bcast_S_S1600000 (constantI S_ 32 100000#32))) src)))
        Facts₀.bitsLt_bf16_f32) : S100000x64.Idx → EReal)
      = nsumMat src dst M2 :=
  funext fun i => (eq_ix2 i).symm ▸
    (aggOps_apply scatter_S100000x64_S1600000x1_S1600000x64_1_0_0_1 gather_S100000x64_S1600000x1_S1600000x64_1_0_n_n_0_1_164
      Facts₀.scatter_S100000x64_S1600000x1_S1600000x64_1_0_0_1_wf Facts₀.gather_S100000x64_S1600000x1_S1600000x64_1_0_n_n_0_1_164_wf
      rfl rfl Facts₀.bcast_S_S100000x64 _ _ src dst
      (fun e => wrapCol_apply Facts₀.bcast_S1600000_S1600000x1_0 Facts₀.bcast_S_S1600000 Facts₀.bcast_S_S1600000 src e 0)
      (fun e => edgeCol_apply Facts₀.bcast_S1600000_S1600000x1_0 dst e 0) M2 (i 0) (i 1))

variable (m : (ℓ : Loc nD τ sig) → Buf (Elt Ideal) ℓ) (ρ : Dev nD → PrngReg) (c : Dev nD)

/-- None of the stretch's operations writes the hidden features, -/
theorem kept_v37_0 : W5 m ρ c (Proc.devRef .tc main_v37_0) = W4 m ρ c (Proc.devRef .tc main_v37_0) :=
  StableHlo.after_of_forall_not_mem (b := Proc.devRef .tc main_v37_0) _ _ (List.forall_iff_forall_mem.mp (by
    simp only [hostOps2, List.Forall, StableHlo.nullary_writes, StableHlo.unary_writes, StableHlo.binary_writes,
      StableHlo.ternary_writes, Finset.mem_singleton]
    repeat' apply And.intro
    all_goals exact StableHlo.devRef_ne_of_ne (by decide)))

/-- the scale column, -/
theorem kept_v8 : W5 m ρ c (Proc.devRef .tc main_v8) = W4 m ρ c (Proc.devRef .tc main_v8) :=
  StableHlo.after_of_forall_not_mem (b := Proc.devRef .tc main_v8) _ _ (List.forall_iff_forall_mem.mp (by
    simp only [hostOps2, List.Forall, StableHlo.nullary_writes, StableHlo.unary_writes, StableHlo.binary_writes,
      StableHlo.ternary_writes, Finset.mem_singleton]
    repeat' apply And.intro
    all_goals exact StableHlo.devRef_ne_of_ne (by decide)))

/-- the last layer's first weight matrix, -/
theorem kept_v13 : W5 m ρ c (Proc.devRef .tc main_v13) = W4 m ρ c (Proc.devRef .tc main_v13) :=
  StableHlo.after_of_forall_not_mem (b := Proc.devRef .tc main_v13) _ _ (List.forall_iff_forall_mem.mp (by
    simp only [hostOps2, List.Forall, StableHlo.nullary_writes, StableHlo.unary_writes, StableHlo.binary_writes,
      StableHlo.ternary_writes, Finset.mem_singleton]
    repeat' apply And.intro
    all_goals exact StableHlo.devRef_ne_of_ne (by decide)))

/-- or the last layer's bias. -/
theorem kept_arg11 : W5 m ρ c (Proc.devRef .tc main_arg11) = W4 m ρ c (Proc.devRef .tc main_arg11) :=
  StableHlo.after_of_forall_not_mem (b := Proc.devRef .tc main_arg11) _ _ (List.forall_iff_forall_mem.mp (by
    simp only [hostOps2, List.Forall, StableHlo.nullary_writes, StableHlo.unary_writes, StableHlo.binary_writes,
      StableHlo.ternary_writes, Finset.mem_singleton]
    repeat' apply And.intro
    all_goals exact StableHlo.devRef_ne_of_ne (by decide)))

/-- After the stretch the aggregate buffer holds the neighbour sums of the projected features. -/
theorem agg_v48 (M2 : Mat 100000 64) (src dst : EdgeVec)
    (h1 : W4 m ρ c (Proc.devRef .tc main_v37_1) = M2) (ha1 : W4 m ρ c (Proc.devRef .tc main_arg1) = src)
    (ha2 : W4 m ρ c (Proc.devRef .tc main_arg2) = dst) :
    W5 m ρ c (Proc.devRef .tc main_v48) = nsumMat src dst M2 := by
  subst h1 ha1 ha2
  show StableHlo.after hostOps2 (W4 m ρ c) (Proc.devRef .tc main_v48) = _
  unfold hostOps2
  after_results_simp
  exact agg64 _ _ _

/-- THE RESULT ARRAY after the last region: the last layer's dense step of the hidden features, the neighbour sums of
    the projected features, the scale column, the weights and the bias, as they stand after the second region. -/
theorem w6_out (H2 : Mat 100000 128) (M2 : Mat 100000 64) (src dst : EdgeVec) (d : Mat 100000 1) (Ws : Mat 128 64) (b : Row 64)
    (h0 : W4 m ρ c (Proc.devRef .tc main_v37_0) = H2) (h1 : W4 m ρ c (Proc.devRef .tc main_v37_1) = M2)
    (h8 : W4 m ρ c (Proc.devRef .tc main_v8) = d)
    (ha1 : W4 m ρ c (Proc.devRef .tc main_arg1) = src) (ha2 : W4 m ρ c (Proc.devRef .tc main_arg2) = dst)
    (h13 : W4 m ρ c (Proc.devRef .tc main_v13) = Ws) (h11 : W4 m ρ c (Proc.devRef .tc main_arg11) = b) :
    W6 m ρ c (Proc.devRef .tc main_v49) = denseOut H2 (nsumMat src dst M2) d Ws b := by
  refine (W6_arr m ρ c 5).trans ?_
  refine (Cert.Sage.K2.region2_out (V5 m ρ) c).trans ?_
  show denseOut (W5 m ρ c (Proc.devRef .tc main_v37_0)) (W5 m ρ c (Proc.devRef .tc main_v48)) (W5 m ρ c (Proc.devRef .tc main_v8))
      (W5 m ρ c (Proc.devRef .tc main_v13)) (W5 m ρ c (Proc.devRef .tc main_arg11)) = _
  rw [kept_v37_0, kept_v8, kept_v13, kept_arg11, agg_v48 m ρ c M2 src dst h1 ha1 ha2, h0, h8, h13, h11]

end Cert.Sage.KS2
end
-- ==== Proof.KernelValue.lean ====
/-
  The idealized kernel's result is the network with the last projection applied before the last neighbour sum.

  The program alternates three stretches of host operations with three tiled regions. Following the contents of its
  buffers from boundary to boundary: the first region leaves the first hidden layer in its result array; the second
  stretch forms that layer's neighbour sums and the second region leaves the second hidden layer `H2` and its product
  `H2 · Wn2` with the last layer's neighbour weights; the third stretch forms the neighbour sums of that product, and the
  third region adds them, scaled by the reciprocal degrees, to `H2 · Ws2` and the bias. The run of the program ends with
  the result array at these contents and the argument arrays unchanged.
-/
import proofs.«119634_j12043088298174_2_alg».proof.Proof.KernelRun
import proofs.«119634_j12043088298174_2_alg».proof.Proof.KernelStretch0
import proofs.«119634_j12043088298174_2_alg».proof.Proof.KernelStretch1
import proofs.«119634_j12043088298174_2_alg».proof.Proof.KernelStretch2

set_option maxRecDepth 16384
noncomputable section

namespace Cert.Sage.KV

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

/-- the network of the launch contents of core `c`'s argument arrays, the last projection first -/
def kernelOut (c : Dev nD) : S100000x64.Idx → EReal :=
  networkProjFirst (m ((c : Thread nD τ).loc main_arg1)) (m ((c : Thread nD τ).loc main_arg2)) (m ((c : Thread nD τ).loc main_arg0))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- the contents of the result array at the last boundary -/
theorem w6_value (c : Dev nD) : (W6 m ρ c (Proc.devRef .tc main_v49) : S100000x64.Idx → EReal) = kernelOut m c := by
  obtain ⟨h0, h1, h8, ha1, ha2, h13, ha11⟩ := Cert.Sage.KS1.w4_facts m ρ c _ _ _ _ _ _ _ _ _ _
    (Cert.Sage.KS0.w2_v25 m ρ c) (Cert.Sage.KS0.w2_v8 m ρ c) (Cert.Sage.KS0.w2_arg1 m ρ c) (Cert.Sage.KS0.w2_arg2 m ρ c)
    (Cert.Sage.KS0.w2_v11 m ρ c) (Cert.Sage.KS0.w2_v12 m ρ c) (Cert.Sage.KS0.w2_arg8 m ρ c) (Cert.Sage.KS0.w2_v14 m ρ c)
    (Cert.Sage.KS0.w2_v13 m ρ c) (Cert.Sage.KS0.w2_arg11 m ρ c)
  exact Cert.Sage.KS2.w6_out m ρ c _ _ _ _ _ _ _ h0 h1 h8 ha1 ha2 h13 ha11

/-- the run of the idealized kernel with its result named -/
theorem kernel_run : θ_run (defs (F := Ideal)) (onTc (τ := τ) (main (F := Ideal))) ⟨m, fun _ => 0, ρ⟩ (fun r => ∀ c : Dev nD,
      r.2.mem ((c.tc : Thread nD τ).loc main_v49) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun r h c => ⟨(h c).1.trans (w6_value m ρ c), (h c).2⟩)
    (Cert.KernelIdeal.RunValue.run_out (F := Ideal) m ρ)

end Cert.Sage.KV
end
-- ==== Proof.RefValue.lean ====
/-
  The reference program's result is the three-layer mean-aggregating network, index by index.

  The program gathers, for every edge, the feature row of the edge's (wrapped, clamped) source node, adds the gathered
  rows into the rows named by the destination indices starting from the zero matrix, scales row n by the reciprocal of
  max(in-degree of n, 1), multiplies the node features and the scaled sums by two weight matrices, adds the two
  products and a bias row, and (in the first two layers) clamps the result below at zero. Each of these steps is read
  at an index (n, j): the gather-scatter pair is the neighbour sum, the degree scatter counts the edges landing at n,
  a plain matrix product is the sum over the shared axis, a broadcast reads its operand at the surviving coordinates.
  One lemma states a layer over arbitrary operand arrays; it is used three times.
-/
import proofs.«119634_j12043088298174_2_alg».proof.Proof.Gen.ReferenceIdeal.Read
import proofs.«119634_j12043088298174_2_alg».proof.Proof.SageSpec
import proofs.«119634_j12043088298174_2_alg».proof.Proof.SageOps
import proofs.«119634_j12043088298174_2_alg».proof.Proof.SageHostOps
import proofs.«119634_j12043088298174_2_alg».proof.Proof.LibMatmul
open scoped BigOperators
noncomputable section
namespace Cert.Sage.Ref
open Idealize.ShloMosaic Idealize.ShloMosaic.ValueIdx Cert.ReferenceIdeal Cert.ReferenceIdeal.Gen Cert.ReferenceIdeal.Read

/-- the arrays of the program at the ideal values -/
abbrev AFeat : Type := (⟨S100000x128, .f32⟩ : BufTy).Contents (Elt Ideal)
abbrev AEdge : Type := (⟨S1600000, .i32⟩ : BufTy).Contents (Elt Ideal)

/-! ## The float constant zero -/

theorem zero_f32 : FloatOps.ofBits (F := Ideal) .f32 0x00000000#32 = (0 : EReal) := by
  rw [Ideal.ofBits_def, Ideal.ofBits_zero_f32]

/-! ## The edge columns -/

theorem idx14 (e : Fin 1600000) (u : Fin 1) : idx_main_v14 (ix2 e u) = ix1 e := by
  funext a; match a with | ⟨0, _⟩ => rfl

theorem idx17 (e : Fin 1600000) (u : Fin 1) : idx_main_v17 (ix2 e u) = ix1 e := by
  funext a; match a with | ⟨0, _⟩ => rfl
theorem idx2 (e : Fin 1600000) (u : Fin 1) : idx_main_v2 (ix2 e u) = ix1 e := by
  funext a; match a with | ⟨0, _⟩ => rfl

/-- the source column holds the wrapped source indices -/
theorem srcCol_apply (x1 : AEdge) (e : Fin 1600000) :
    val_main_v14 (F := Ideal) x1 (ix2 e (0 : Fin 1)) = wrapIdx (x1 (ix1 e)) := by
  rw [val_main_v14_apply, idx14, val_main_v13_apply, val_main_v10_apply, val_main_v12_apply, val_main_v9_apply,
    val_main_v11_apply, val_main_c_apply, val_main_c_3_apply]
  rfl

/-- the destination column holds the destination indices -/
theorem dstCol_apply (x2 : AEdge) (e : Fin 1600000) :
    val_main_v17 (F := Ideal) x2 (ix2 e (0 : Fin 1)) = x2 (ix1 e) := by
  rw [val_main_v17_apply, idx17]

theorem dstCol2_apply (x2 : AEdge) (e : Fin 1600000) :
    val_main_v2 (F := Ideal) x2 (ix2 e (0 : Fin 1)) = x2 (ix1 e) := by
  rw [val_main_v2_apply, idx2]

/-! ## The reciprocal degree and the neighbour sum -/

theorem idx8 (n : Fin 100000) (u : Fin 1) : idx_main_v8 (ix2 n u) = ix1 n := by
  funext a; match a with | ⟨0, _⟩ => rfl

/-- the degree vector holds the reciprocal degrees -/
theorem deg7_apply (x2 : AEdge) (n : Fin 100000) : val_main_v7 (F := Ideal) x2 (ix1 n) = invDeg x2 n :=
  invDegOps_apply scatter_S100000_S1600000x1_S1600000_n_0_0_1 scatter_S100000_S1600000x1_S1600000_n_0_0_1_wf rfl
    bcast_S_S100000 bcast_S_S100000 bcast_S_S100000 bcast_S_S1600000 (val_main_v2 (F := Ideal) x2) x2 (dstCol2_apply x2) n

/-- the degree column holds the reciprocal degrees -/
theorem deg_apply (x2 : AEdge) (n : Fin 100000) (u : Fin 1) :
    val_main_v8 (F := Ideal) x2 (ix2 n u) = invDeg x2 n := by
  rw [val_main_v8_apply, idx8]
  exact deg7_apply x2 n

/-- gathering the source rows and adding them at the destination rows gives the neighbour sum -/
theorem nbr_apply (x1 x2 : AEdge) (h : AFeat) (n : Fin 100000) (k : Fin 128) :
    Host.scatterAdd (F := Ideal) (φ := .f32) scatter_S100000x128_S1600000x1_S1600000x128_1_0_0_1 (val_main_v16 (F := Ideal))
        (val_main_v17 (F := Ideal) x2)
        (Host.gather gather_S100000x128_S1600000x1_S1600000x128_1_0_n_n_0_1_1128 h (val_main_v14 (F := Ideal) x1)) (ix2 n k)
      = nsum x1 x2 h n k :=
  aggOps_apply scatter_S100000x128_S1600000x1_S1600000x128_1_0_0_1 gather_S100000x128_S1600000x1_S1600000x128_1_0_n_n_0_1_1128
    scatter_S100000x128_S1600000x1_S1600000x128_1_0_0_1_wf gather_S100000x128_S1600000x1_S1600000x128_1_0_n_n_0_1_1128_wf rfl rfl
    bcast_S_S100000x128 (val_main_v14 (F := Ideal) x1) (val_main_v17 (F := Ideal) x2) x1 x2 (srcCol_apply x1) (dstCol_apply x2) h n k

/-! ## Broadcasts read at an index -/

theorem idx19 (n : Fin 100000) (k : Fin 128) : idx_main_v19 (ix2 n k) = ix2 n (0 : Fin 1) := by
  funext a; match a with
  | ⟨0, _⟩ => rfl
  | ⟨1, _⟩ => rfl

/-- the scale matrix repeats the reciprocal degree along a row -/
theorem scale_apply (x2 : AEdge) (n : Fin 100000) (k : Fin 128) :
    val_main_v19 (F := Ideal) x2 (ix2 n k) = invDegCol x2 (ix2 n (0 : Fin 1)) := by
  rw [val_main_v19_apply, idx19]
  exact deg_apply x2 n 0

theorem idx25 (n : Fin 100000) (j : Fin 128) : idx_main_v24 (idx_main_v25 (ix2 n j)) = ix1 j := by
  funext a; match a with | ⟨0, _⟩ => rfl
theorem idx44 (n : Fin 100000) (j : Fin 128) : idx_main_v43 (idx_main_v44 (ix2 n j)) = ix1 j := by
  funext a; match a with | ⟨0, _⟩ => rfl
theorem idx63 (n : Fin 100000) (j : Fin 64) : idx_main_v62 (idx_main_v63 (ix2 n j)) = ix1 j := by
  funext a; match a with | ⟨0, _⟩ => rfl

/-- a bias row broadcast over the nodes reads the row at the column -/
theorem bias0_apply (x5 : (⟨S128, .f32⟩ : BufTy).Contents (Elt Ideal)) (n : Fin 100000) (j : Fin 128) :
    val_main_v25 (F := Ideal) x5 (ix2 n j) = x5 (ix1 j) := by
  rw [val_main_v25_apply, val_main_v24_apply, idx25]
theorem bias1_apply (x8 : (⟨S128, .f32⟩ : BufTy).Contents (Elt Ideal)) (n : Fin 100000) (j : Fin 128) :
    val_main_v44 (F := Ideal) x8 (ix2 n j) = x8 (ix1 j) := by
  rw [val_main_v44_apply, val_main_v43_apply, idx44]
theorem bias2_apply (x11 : (⟨S64, .f32⟩ : BufTy).Contents (Elt Ideal)) (n : Fin 100000) (j : Fin 64) :
    val_main_v63 (F := Ideal) x11 (ix2 n j) = x11 (ix1 j) := by
  rw [val_main_v63_apply, val_main_v62_apply, idx63]

/-! ## One layer over arbitrary operand arrays -/

theorem add_at {s : Shape} (A B : FVec Ideal s .f32) (i : s.Idx) : addf A B i = A i + B i := rfl
theorem mul_at {s : Shape} (A B : FVec Ideal s .f32) (i : s.Idx) : mulf A B i = A i * B i := rfl
theorem max_at {s : Shape} (A B : FVec Ideal s .f32) (i : s.Idx) : maximumf A B i = max (A i) (B i) := rfl

/-- the weight matrices and the results of width D -/
abbrev AW (D : Nat) : Type := (⟨⟨2, ![128, D]⟩, .f32⟩ : BufTy).Contents (Elt Ideal)
abbrev AOut (D : Nat) : Type := (⟨⟨2, ![100000, D]⟩, .f32⟩ : BufTy).Contents (Elt Ideal)

/-- two plain products, one of the features and one of the scaled aggregate, added to each other and to a bias array,
    are the dense part of a layer -/
theorem layer_apply {D : Nat} (dd : DotDims S100000x128 ⟨2, ![128, D]⟩ ⟨2, ![100000, D]⟩) (hdd : dd = DotDims.plain 100000 128 D)
    (h agg scale : AFeat) (a : Mat 100000 128) (d : Mat 100000 1) (Ws Wn : AW D) (bias : AOut D) (b : Row D)
    (hagg : ∀ (n : Fin 100000) (k : Fin 128), agg (ix2 n k) = a (ix2 n k))
    (hscale : ∀ (n : Fin 100000) (k : Fin 128), scale (ix2 n k) = d (ix2 n (0 : Fin 1)))
    (hbias : ∀ (n : Fin 100000) (j : Fin D), bias (ix2 n j) = b (ix1 j)) (n : Fin 100000) (j : Fin D) :
    addf (F := Ideal) (φ := .f32) (addf (F := Ideal) (φ := .f32) (Host.dotGeneral (F := Ideal) (φ₁ := .f32) (φ₂ := .f32) dd none h Ws)
        (Host.dotGeneral (F := Ideal) (φ₁ := .f32) (φ₂ := .f32) dd none (mulf (F := Ideal) (φ := .f32) agg scale) Wn)) bias (ix2 n j)
      = denseLayer h a d Ws Wn b n j := by
  subst hdd
  rw [add_at, add_at, Cert.MatOps.dotGeneral_plain_apply, Cert.MatOps.dotGeneral_plain_apply, hbias]
  unfold denseLayer
  refine congrArg (fun t => (_ + t) + _) (Finset.sum_congr rfl fun k _ => ?_)
  rw [mul_at, hagg, hscale]

/-! ## The three layers of the program -/

theorem idx38 (n : Fin 100000) (k : Fin 128) : idx_main_v38 (ix2 n k) = ix2 n (0 : Fin 1) := by
  funext a; match a with
  | ⟨0, _⟩ => rfl
  | ⟨1, _⟩ => rfl
theorem idx57 (n : Fin 100000) (k : Fin 128) : idx_main_v57 (ix2 n k) = ix2 n (0 : Fin 1) := by
  funext a; match a with
  | ⟨0, _⟩ => rfl
  | ⟨1, _⟩ => rfl

theorem scale1_apply (x2 : AEdge) (n : Fin 100000) (k : Fin 128) :
    val_main_v38 (F := Ideal) x2 (ix2 n k) = invDegCol x2 (ix2 n (0 : Fin 1)) := by
  rw [val_main_v38_apply, idx38]
  exact deg_apply x2 n 0
theorem scale2_apply (x2 : AEdge) (n : Fin 100000) (k : Fin 128) :
    val_main_v57 (F := Ideal) x2 (ix2 n k) = invDegCol x2 (ix2 n (0 : Fin 1)) := by
  rw [val_main_v57_apply, idx57]
  exact deg_apply x2 n 0

/-- the later copies of the two edge columns and of the zero matrix are the first ones -/
theorem srcCol1_eq (x1 : AEdge) : val_main_v33 (F := Ideal) x1 = val_main_v14 (F := Ideal) x1 := rfl
theorem srcCol2_eq (x1 : AEdge) : val_main_v52 (F := Ideal) x1 = val_main_v14 (F := Ideal) x1 := rfl
theorem dstCol1_eq (x2 : AEdge) : val_main_v36 (F := Ideal) x2 = val_main_v17 (F := Ideal) x2 := rfl
theorem dstCol2_eq (x2 : AEdge) : val_main_v55 (F := Ideal) x2 = val_main_v17 (F := Ideal) x2 := rfl
theorem zeroMat1_eq : val_main_v35 (F := Ideal) = val_main_v16 (F := Ideal) := rfl
theorem zeroMat2_eq : val_main_v54 (F := Ideal) = val_main_v16 (F := Ideal) := rfl

section Layers
variable (x0 : AFeat) (x1 x2 : AEdge) (x3 x4 : (⟨S128x128, .f32⟩ : BufTy).Contents (Elt Ideal))
  (x5 : (⟨S128, .f32⟩ : BufTy).Contents (Elt Ideal)) (x6 x7 : (⟨S128x128, .f32⟩ : BufTy).Contents (Elt Ideal))
  (x8 : (⟨S128, .f32⟩ : BufTy).Contents (Elt Ideal)) (x9 x10 : (⟨S128x64, .f32⟩ : BufTy).Contents (Elt Ideal))
  (x11 : (⟨S64, .f32⟩ : BufTy).Contents (Elt Ideal))

/-- the first layer before the clamp -/
theorem pre0_apply (n : Fin 100000) (j : Fin 128) :
    val_main_v26 (F := Ideal) x0 x1 x2 x3 x4 x5 (ix2 n j) = denseLayer x0 (nsumMat x1 x2 x0) (invDegCol x2) x3 x4 x5 n j :=
  layer_apply dot_S100000x128_S128x128_S100000x128_1_0_0_1_n_n rfl x0 (val_main_v18 (F := Ideal) x0 x1 x2)
    (val_main_v19 (F := Ideal) x2) (nsumMat x1 x2 x0) (invDegCol x2) x3 x4 (val_main_v25 (F := Ideal) x5) x5
    (fun n k => nbr_apply x1 x2 x0 n k) (scale_apply x2) (bias0_apply x5) n j

/-- the first hidden layer -/
theorem hidden0 : val_main_v27 (F := Ideal) x0 x1 x2 x3 x4 x5 = hidden x1 x2 x0 x3 x4 x5 := by
  funext i
  obtain ⟨n, j, rfl⟩ : ∃ (n : Fin 100000) (j : Fin 128), i = ix2 n j := ⟨i 0, i 1, eq_ix2 i⟩
  rw [val_main_v27_apply, pre0_apply, val_main_call0_v0_apply, val_main_call0_cst_apply, zero_f32, Ideal.maximumf_def]
  exact (denseHidden_ix2 x0 (nsumMat x1 x2 x0) (invDegCol x2) x3 x4 x5 n j).symm

/-- the neighbour sum of the first hidden layer's output -/
theorem nbr1_apply (n : Fin 100000) (k : Fin 128) :
    val_main_v37 (F := Ideal) x0 x1 x2 x3 x4 x5 (ix2 n k)
      = nsumMat x1 x2 (val_main_v27 (F := Ideal) x0 x1 x2 x3 x4 x5) (ix2 n k) := by
  unfold val_main_v37 val_main_v34
  rw [srcCol1_eq, dstCol1_eq, zeroMat1_eq]
  generalize val_main_v27 (F := Ideal) x0 x1 x2 x3 x4 x5 = H
  exact nbr_apply x1 x2 H n k

/-- the second layer before the clamp -/
theorem pre1_apply (n : Fin 100000) (j : Fin 128) :
    val_main_v45 (F := Ideal) x0 x1 x2 x3 x4 x5 x6 x7 x8 (ix2 n j)
      = denseLayer (val_main_v27 (F := Ideal) x0 x1 x2 x3 x4 x5) (nsumMat x1 x2 (val_main_v27 (F := Ideal) x0 x1 x2 x3 x4 x5))
          (invDegCol x2) x6 x7 x8 n j :=
  layer_apply dot_S100000x128_S128x128_S100000x128_1_0_0_1_n_n rfl (val_main_v27 (F := Ideal) x0 x1 x2 x3 x4 x5)
    (val_main_v37 (F := Ideal) x0 x1 x2 x3 x4 x5) (val_main_v38 (F := Ideal) x2)
    (nsumMat x1 x2 (val_main_v27 (F := Ideal) x0 x1 x2 x3 x4 x5)) (invDegCol x2) x6 x7 (val_main_v44 (F := Ideal) x8) x8
    (nbr1_apply x0 x1 x2 x3 x4 x5) (scale1_apply x2) (bias1_apply x8) n j

/-- the second hidden layer -/
theorem hidden1 : val_main_v46 (F := Ideal) x0 x1 x2 x3 x4 x5 x6 x7 x8
    = hidden x1 x2 (val_main_v27 (F := Ideal) x0 x1 x2 x3 x4 x5) x6 x7 x8 := by
  funext i
  obtain ⟨n, j, rfl⟩ : ∃ (n : Fin 100000) (j : Fin 128), i = ix2 n j := ⟨i 0, i 1, eq_ix2 i⟩
  rw [val_main_v46_apply, pre1_apply, val_main_call1_v0_apply, val_main_call1_cst_apply, zero_f32, Ideal.maximumf_def]
  exact (denseHidden_ix2 (val_main_v27 (F := Ideal) x0 x1 x2 x3 x4 x5)
    (nsumMat x1 x2 (val_main_v27 (F := Ideal) x0 x1 x2 x3 x4 x5)) (invDegCol x2) x6 x7 x8 n j).symm

/-- the neighbour sum of the second hidden layer's output -/
theorem nbr2_apply (n : Fin 100000) (k : Fin 128) :
    val_main_v56 (F := Ideal) x0 x1 x2 x3 x4 x5 x6 x7 x8 (ix2 n k)
      = nsumMat x1 x2 (val_main_v46 (F := Ideal) x0 x1 x2 x3 x4 x5 x6 x7 x8) (ix2 n k) := by
  unfold val_main_v56 val_main_v53
  rw [srcCol2_eq, dstCol2_eq, zeroMat2_eq]
  generalize val_main_v46 (F := Ideal) x0 x1 x2 x3 x4 x5 x6 x7 x8 = H
  exact nbr_apply x1 x2 H n k

/-- the last layer -/
theorem out2_apply (n : Fin 100000) (j : Fin 64) :
    val_main_v64 (F := Ideal) x0 x1 x2 x3 x4 x5 x6 x7 x8 x9 x10 x11 (ix2 n j)
      = denseLayer (val_main_v46 (F := Ideal) x0 x1 x2 x3 x4 x5 x6 x7 x8)
          (nsumMat x1 x2 (val_main_v46 (F := Ideal) x0 x1 x2 x3 x4 x5 x6 x7 x8)) (invDegCol x2) x9 x10 x11 n j :=
  layer_apply dot_S100000x128_S128x64_S100000x64_1_0_0_1_n_n rfl (val_main_v46 (F := Ideal) x0 x1 x2 x3 x4 x5 x6 x7 x8)
    (val_main_v56 (F := Ideal) x0 x1 x2 x3 x4 x5 x6 x7 x8) (val_main_v57 (F := Ideal) x2)
    (nsumMat x1 x2 (val_main_v46 (F := Ideal) x0 x1 x2 x3 x4 x5 x6 x7 x8)) (invDegCol x2) x9 x10 (val_main_v63 (F := Ideal) x11) x11
    (nbr2_apply x0 x1 x2 x3 x4 x5 x6 x7 x8) (scale2_apply x2) (bias2_apply x11) n j

theorem out2 : val_main_v64 (F := Ideal) x0 x1 x2 x3 x4 x5 x6 x7 x8 x9 x10 x11
    = outLayer x1 x2 (val_main_v46 (F := Ideal) x0 x1 x2 x3 x4 x5 x6 x7 x8) x9 x10 x11 := by
  funext i
  obtain ⟨n, j, rfl⟩ : ∃ (n : Fin 100000) (j : Fin 64), i = ix2 n j := ⟨i 0, i 1, eq_ix2 i⟩
  exact (out2_apply x0 x1 x2 x3 x4 x5 x6 x7 x8 x9 x10 x11 n j).trans
    (outLayer_ix2 x1 x2 (val_main_v46 (F := Ideal) x0 x1 x2 x3 x4 x5 x6 x7 x8) x9 x10 x11 n j).symm
end Layers

/-- THE REFERENCE PROGRAM'S RESULT IS THE NETWORK -/
theorem ref_value (x0 : (⟨Cert.ReferenceIdeal.S100000x128, .f32⟩ : BufTy).Contents (Elt Ideal))
    (x1 x2 : (⟨Cert.ReferenceIdeal.S1600000, .i32⟩ : BufTy).Contents (Elt Ideal))
    (x3 x4 : (⟨Cert.ReferenceIdeal.S128x128, .f32⟩ : BufTy).Contents (Elt Ideal))
    (x5 : (⟨Cert.ReferenceIdeal.S128, .f32⟩ : BufTy).Contents (Elt Ideal))
    (x6 x7 : (⟨Cert.ReferenceIdeal.S128x128, .f32⟩ : BufTy).Contents (Elt Ideal))
    (x8 : (⟨Cert.ReferenceIdeal.S128, .f32⟩ : BufTy).Contents (Elt Ideal))
    (x9 x10 : (⟨Cert.ReferenceIdeal.S128x64, .f32⟩ : BufTy).Contents (Elt Ideal))
    (x11 : (⟨Cert.ReferenceIdeal.S64, .f32⟩ : BufTy).Contents (Elt Ideal)) :
    Cert.ReferenceIdeal.Read.val_main_v64 (F := Ideal) x0 x1 x2 x3 x4 x5 x6 x7 x8 x9 x10 x11
      = Cert.Sage.network x1 x2 x0 x3 x4 x5 x6 x7 x8 x9 x10 x11 := by
  rw [out2, hidden1, hidden0]
  rfl

end Cert.Sage.Ref
end
-- ==== Proof.RefRun.lean ====
/-
  The reference program's run, with its result named by the specification.

  Every weakly fair execution of the reference program terminates with its result buffer holding the composed term of
  its operations applied to the twelve argument arrays, and with the arguments unchanged. That composed term is the
  last stage of the program read operation by operation; once the last stage is known to be the three-layer network of
  the specification (taken here as a hypothesis), the run ends with the result buffer holding the network of the
  argument arrays. Dropping the result gives the frame: the program runs and leaves its arguments as they were.
-/
import proofs.«119634_j12043088298174_2_alg».proof.Proof.Gen.ReferenceIdeal.Read
import proofs.«119634_j12043088298174_2_alg».proof.Proof.SageSpec

noncomputable section

namespace Cert.Sage.RefRun
open Idealize.ShloMosaic Idealize.ShloMosaic.TcCoe Idealize.SL.Sem

/-- The reference runs and ends with its result at the network of its arguments, the arguments unchanged, given that
    the program's last stage is the network. -/
theorem ref_run [hR : Cert.ReferenceIdeal.Facts]
    (hrv : ∀ (x0 : (⟨Cert.ReferenceIdeal.S100000x128, .f32⟩ : BufTy).Contents (Elt Ideal)) (x1 x2 : (⟨Cert.ReferenceIdeal.S1600000, .i32⟩ : BufTy).Contents (Elt Ideal)) (x3 x4 : (⟨Cert.ReferenceIdeal.S128x128, .f32⟩ : BufTy).Contents (Elt Ideal)) (x5 : (⟨Cert.ReferenceIdeal.S128, .f32⟩ : BufTy).Contents (Elt Ideal)) (x6 x7 : (⟨Cert.ReferenceIdeal.S128x128, .f32⟩ : BufTy).Contents (Elt Ideal)) (x8 : (⟨Cert.ReferenceIdeal.S128, .f32⟩ : BufTy).Contents (Elt Ideal)) (x9 x10 : (⟨Cert.ReferenceIdeal.S128x64, .f32⟩ : BufTy).Contents (Elt Ideal)) (x11 : (⟨Cert.ReferenceIdeal.S64, .f32⟩ : BufTy).Contents (Elt Ideal)),
      Cert.ReferenceIdeal.Read.val_main_v64 (F := Ideal) x0 x1 x2 x3 x4 x5 x6 x7 x8 x9 x10 x11
        = Cert.Sage.network x1 x2 x0 x3 x4 x5 x6 x7 x8 x9 x10 x11)
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v64)
        = Cert.Sage.network
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run (Cert.ReferenceIdeal.defs (F := Ideal)) _ _).mono
    (fun _ h c => ⟨(h c).1.trans ((Cert.ReferenceIdeal.Read.val_main_v64_eq (F := Ideal) m' c).trans (hrv _ _ _ _ _ _ _ _ _ _ _ _)), (h c).2⟩)
    (Cert.ReferenceIdeal.Value.run (F := Ideal) m' ρ')

/-- The reference runs and leaves its twelve argument arrays unchanged. -/
theorem ref_frame [hR : Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run (Cert.ReferenceIdeal.defs (F := Ideal)) _ _).mono (fun _ h c => (h c).2)
    (Cert.ReferenceIdeal.Value.run (F := Ideal) m' ρ')

end Cert.Sage.RefRun
end
-- ==== Proof.SageAlgebra.lean ====
/-
  The algebra of the mean-aggregating network over the extended reals.

  In its last layer the network may either take the neighbour sum, scale it by the reciprocal degree and then multiply by
  the weight matrix, or multiply by the weight matrix first and then take the neighbour sum and scale. Over the extended
  reals multiplication does not distribute over addition at the infinities, so the two orders agree only where every value
  involved is a real number. This file shows that real inputs stay real through the neighbour sum, the reciprocal degree
  and a hidden layer, and that on real data the two orders of the last layer give the same matrix.
-/
import Mathlib.Data.EReal.Basic
import Mathlib.Algebra.BigOperators.Ring.Finset
import Mathlib.Tactic.Choose
import Mathlib.Tactic.Ring
import proofs.«119634_j12043088298174_2_alg».proof.Proof.SageSpec
open scoped BigOperators
noncomputable section
namespace Cert.Sage
open Idealize.ShloMosaic Idealize.ShloMosaic.ValueIdx

/-- the inclusion of the reals in the extended reals commutes with finite sums -/
theorem coe_finset_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- the inclusion of the reals in the extended reals commutes with the maximum of two numbers -/
theorem coe_max_real (x y : ℝ) : max (x : EReal) (y : EReal) = ((max x y : ℝ) : EReal) :=
  (EReal.coe_strictMono.monotone.map_max).symm

/-- the neighbour sum of a real matrix is real: a finite sum of reals -/
theorem nsum_isReal {D : Nat} (src dst : EdgeVec) (h : Mat 100000 D) (hh : IsReal h)
    (n : Fin 100000) (j : Fin D) : ∃ r : ℝ, nsum src dst h n j = (r : EReal) := by
  choose hr hhr using hh
  refine ⟨∑ e ∈ landing dst n, hr (ix2 (srcRow src e) j), ?_⟩
  simp only [nsum, hhr, zero_add, coe_finset_sum]

/-- the reciprocal degree is real: the degree is a finite sum of ones, its maximum with one is a real number at
    least one, hence nonzero, and one divided by a nonzero real is a real -/
theorem invDeg_isReal (dst : EdgeVec) (n : Fin 100000) : ∃ r : ℝ, invDeg dst n = (r : EReal) := by
  have hy : max (∑ _e ∈ landing dst n, (1 : ℝ)) 1 ≠ 0 :=
    ne_of_gt (lt_of_lt_of_le one_pos (le_max_right _ _))
  refine ⟨1 / max (∑ _e ∈ landing dst n, (1 : ℝ)) 1, ?_⟩
  have hdeg : (0 + ∑ _e ∈ landing dst n, (1 : EReal))
      = ((∑ _e ∈ landing dst n, (1 : ℝ) : ℝ) : EReal) := by
    rw [zero_add, coe_finset_sum]; rfl
  have hmax : max (0 + ∑ _e ∈ landing dst n, (1 : EReal)) 1
      = ((max (∑ _e ∈ landing dst n, (1 : ℝ)) 1 : ℝ) : EReal) := by
    rw [hdeg, ← EReal.coe_one, coe_max_real]
  unfold invDeg
  rw [hmax, Ideal.div_coe hy, one_mul]

/-- the dense part of a layer is real when everything it reads is real -/
theorem denseLayer_isReal {D : Nat} (h a : Mat 100000 128) (d : Mat 100000 1) (Ws Wn : Mat 128 D) (b : Row D)
    (hh : IsReal h) (ha : IsReal a) (hd : IsReal d) (hWs : IsReal Ws) (hWn : IsReal Wn) (hb : IsReal b)
    (n : Fin 100000) (j : Fin D) : ∃ r : ℝ, denseLayer h a d Ws Wn b n j = (r : EReal) := by
  choose hr hhr using hh
  choose ar har using ha
  choose dr hdr using hd
  choose wsr hwsr using hWs
  choose wnr hwnr using hWn
  choose br hbr using hb
  refine ⟨((∑ k : Fin 128, hr (ix2 n k) * wsr (ix2 k j))
    + (∑ k : Fin 128, (ar (ix2 n k) * dr (ix2 n (0 : Fin 1))) * wnr (ix2 k j))) + br (ix1 j), ?_⟩
  simp only [denseLayer, hhr, har, hdr, hwsr, hwnr, hbr, EReal.coe_add, EReal.coe_mul, coe_finset_sum]

/-- a hidden layer of the network maps real data to real data -/
theorem hidden_isReal (src dst : EdgeVec) (h : Mat 100000 128) (Ws Wn : Mat 128 128) (b : Row 128)
    (hh : IsReal h) (hWs : IsReal Ws) (hWn : IsReal Wn) (hb : IsReal b) :
    IsReal (hidden src dst h Ws Wn b) := by
  intro i
  obtain ⟨r, hr⟩ := denseLayer_isReal h (nsumMat src dst h) (invDegCol dst) Ws Wn b hh
    (fun i => nsum_isReal src dst h hh (rowOf i) (colOf i)) (fun i => invDeg_isReal dst (rowOf i))
    hWs hWn hb (rowOf i) (colOf i)
  refine ⟨max r 0, ?_⟩
  show max (denseLayer h (nsumMat src dst h) (invDegCol dst) Ws Wn b (rowOf i) (colOf i)) 0 = _
  rw [hr, ← EReal.coe_zero, coe_max_real]

/-- on real data, projecting before the neighbour sum and the scaling gives what projecting after them gives:
    in the reals, (∑ e, ∑ k, h (s e) k · W k j) · d = ∑ k, ((∑ e, h (s e) k) · d) · W k j -/
theorem nsum_proj_scale (src dst : EdgeVec) (h : Mat 100000 128) (Wn : Mat 128 64)
    (hh : IsReal h) (hWn : IsReal Wn) (n : Fin 100000) (j : Fin 64) :
    nsum src dst (proj h Wn) n j * invDeg dst n
      = ∑ k : Fin 128, (nsum src dst h n k * invDeg dst n) * Wn (ix2 k j) := by
  choose hr hhr using hh
  choose wr hwr using hWn
  obtain ⟨d, hd⟩ := invDeg_isReal dst n
  have hL : nsum src dst (proj h Wn) n j * invDeg dst n
      = (((∑ e ∈ landing dst n, ∑ k : Fin 128, hr (ix2 (srcRow src e) k) * wr (ix2 k j)) * d : ℝ) : EReal) := by
    simp only [nsum, proj_ix2, hhr, hwr, hd, zero_add, EReal.coe_mul, coe_finset_sum]
  have hR : (∑ k : Fin 128, (nsum src dst h n k * invDeg dst n) * Wn (ix2 k j))
      = ((∑ k : Fin 128, ((∑ e ∈ landing dst n, hr (ix2 (srcRow src e) k)) * d) * wr (ix2 k j) : ℝ) : EReal) := by
    simp only [nsum, hhr, hwr, hd, zero_add, EReal.coe_mul, coe_finset_sum]
  rw [hL, hR, EReal.coe_eq_coe_iff, Finset.sum_comm, Finset.sum_mul]
  refine Finset.sum_congr rfl (fun k _ => ?_)
  rw [← Finset.sum_mul]
  ring

/-- the last layer with the projection first equals the last layer as the reference writes it, on real data -/
theorem outLayer_projFirst (src dst : EdgeVec) (h : Mat 100000 128) (Ws Wn : Mat 128 64) (b : Row 64)
    (hh : IsReal h) (hWn : IsReal Wn) :
    outLayerProjFirst src dst h Ws Wn b = outLayer src dst h Ws Wn b := by
  funext i
  show ((∑ k : Fin 128, h (ix2 (rowOf i) k) * Ws (ix2 k (colOf i)))
        + nsum src dst (proj h Wn) (rowOf i) (colOf i) * invDeg dst (rowOf i)) + b (ix1 (colOf i))
      = ((∑ k : Fin 128, h (ix2 (rowOf i) k) * Ws (ix2 k (colOf i)))
        + (∑ k : Fin 128, (nsum src dst h (rowOf i) k * invDeg dst (rowOf i)) * Wn (ix2 k (colOf i))))
        + b (ix1 (colOf i))
  rw [nsum_proj_scale src dst h Wn hh hWn]

/-- the whole network with the last projection first equals the network as the reference writes it, on real inputs:
    the two hidden layers keep the data real, and the last layers then agree -/
theorem network_projFirst (src dst : EdgeVec) (x : Mat 100000 128) (Ws0 Wn0 : Mat 128 128) (b0 : Row 128)
    (Ws1 Wn1 : Mat 128 128) (b1 : Row 128) (Ws2 Wn2 : Mat 128 64) (b2 : Row 64)
    (hx : IsReal x) (hWs0 : IsReal Ws0) (hWn0 : IsReal Wn0) (hb0 : IsReal b0)
    (hWs1 : IsReal Ws1) (hWn1 : IsReal Wn1) (hb1 : IsReal b1) (hWn2 : IsReal Wn2) :
    networkProjFirst src dst x Ws0 Wn0 b0 Ws1 Wn1 b1 Ws2 Wn2 b2
      = network src dst x Ws0 Wn0 b0 Ws1 Wn1 b1 Ws2 Wn2 b2 :=
  outLayer_projFirst src dst _ Ws2 Wn2 b2
    (hidden_isReal src dst _ Ws1 Wn1 b1 (hidden_isReal src dst x Ws0 Wn0 b0 hx hWs0 hWn0 hb0) hWs1 hWn1 hb1) hWn2

end Cert.Sage
end
-- ==== Proof.FiniteInputs.lean ====
/-
  From the precondition to real-valued inputs.

  The precondition evaluates, for each of the ten floating-point argument arrays v, the conjunction over all entries of
  |v i| < +∞, and takes the conjunction of the ten results; it is assumed to come out true. A conjunction that is true
  has every conjunct true, so every entry x of every such array satisfies max x (-x) < ⊤ in the extended reals. That
  excludes x = ⊤ and x = ⊥ (for x = ⊥ the negation is ⊤), so x is a real number.
-/
import proofs.«119634_j12043088298174_2_alg».proof.Pre_finite_inputs
import proofs.«119634_j12043088298174_2_alg».proof.Proof.Gen.Pre_finite_inputs
import proofs.«119634_j12043088298174_2_alg».proof.Proof.SageSpec
import Idealize.ShloMosaic.Lib.ReduceAll
namespace Cert.Sage.Finite
open Idealize.ShloMosaic Idealize.ShloMosaic.ValueIdx Cert.Sage Cert.Pre_finite_inputs

/-- the shape with no axes has exactly one index -/
instance : Subsingleton S_.Idx := ⟨fun a b => funext fun d => d.elim0⟩

/-- an extended real whose absolute value max x (-x) lies strictly below +∞ is a real number -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- if the conjunction over all entries of |v i| < +∞ is true, every entry of v is a real number -/
theorem isReal_of_all {s : Shape} {axes : List (Fin s.rank)} (dims : Fin S_.rank → Fin s.rank)
    (hb : S_.BroadcastsInDim s dims) (hr : s.ReducesTo axes S_) (hu : 0 < S_.numel) (x : FVec Ideal s .f32) (j : S_.Idx)
    (e : Host.reduce IntOp.andi
          (cmpf .olt (Host.absf x) (broadcastInDim s dims hb (constant S_ .f32 0x7F800000#32)))
          (constantI S_ 1 1#1) hr hu j = 1#1) : IsReal x := by
  intro i
  exact real_of_abs_lt_top (x i) (Host.reduce_andi_all _ _ hr hu j e i)

/-- the precondition makes each of the ten floating-point argument arrays real-valued -/
theorem inputs_real [hP : Cert.Pre_finite_inputs.Facts]
    (a0 : FVec Ideal S100000x128 .f32) (a1 a2 : IVec S1600000 32)
    (a3 a4 : FVec Ideal S128x128 .f32) (a5 : FVec Ideal S128 .f32)
    (a6 a7 : FVec Ideal S128x128 .f32) (a8 : FVec Ideal S128 .f32)
    (a9 a10 : FVec Ideal S128x64 .f32) (a11 : FVec Ideal S64 .f32)
    (h : Cert.Pre_finite_inputs.fn (F := Ideal) a0 a1 a2 a3 a4 a5 a6 a7 a8 a9 a10 a11 = (fun _ => 1#1)) :
    IsReal a0 ∧ IsReal a3 ∧ IsReal a4 ∧ IsReal a5 ∧ IsReal a6 ∧ IsReal a7 ∧ IsReal a8 ∧ IsReal a9 ∧ IsReal a10
      ∧ IsReal a11 := by
  have h0 := congrFun h ix0
  dsimp only [fn, fn_part1, fn_part2, andi] at h0
  simp only [IntOp.andi_eq_one] at h0
  obtain ⟨⟨⟨⟨⟨⟨⟨⟨⟨e0, e3⟩, e4⟩, e5⟩, e6⟩, e7⟩, e8⟩, e9⟩, e10⟩, e11⟩ := h0
  exact ⟨isReal_of_all _ _ _ _ a0 _ e0, isReal_of_all _ _ _ _ a3 _ e3, isReal_of_all _ _ _ _ a4 _ e4,
    isReal_of_all _ _ _ _ a5 _ e5, isReal_of_all _ _ _ _ a6 _ e6, isReal_of_all _ _ _ _ a7 _ e7,
    isReal_of_all _ _ _ _ a8 _ e8, isReal_of_all _ _ _ _ a9 _ e9, isReal_of_all _ _ _ _ a10 _ e10,
    isReal_of_all _ _ _ _ a11 _ e11⟩

end Cert.Sage.Finite
-- ==== Proof.lean ====
/-
  A three-layer mean-aggregating graph network on 100000 nodes and 1600000 edges: a tiled kernel against its plain
  reference, equal over the extended reals on finite inputs.

  Both programs compute, layer by layer, `h ↦ h · Ws + (neighbour mean of h) · Wn + b`, the first two layers clamped below
  at zero, where the neighbour mean of node `n` is the sum of the rows `h (src e)` over the edges `e` with `dst e = n`,
  times the reciprocal of the in-degree (at least one). The kernel evaluates the dense part of each layer tile by tile
  (5000 rows at a time) and keeps the irregular gather and scatter-add on the host; it stores the hidden layers in a
  narrower float format, which changes nothing at exact values. The one real difference is in the last layer: the
  reference forms `(neighbour sum of H2 · 1/deg) · Wn2`, the kernel `(neighbour sum of (H2 · Wn2)) · 1/deg`. Over the
  extended reals a product does not distribute over a sum at the infinities, so the two agree because the data are
  real-valued: the inputs are finite by the precondition, and a hidden layer of real-valued data is real-valued.

  The parts: the specification (SageSpec), the host operations read at an index (SageOps, SageHostOps), the law that
  exchanges the projection and the neighbour sum together with the preservation of realness (SageAlgebra), finiteness of
  the inputs read off the precondition (FiniteInputs), the reference's result as the specification (RefValue, RefRun),
  each region's result array as the dense layer of the arrays it is given (TileLayer, Region0Value, Region1Value,
  Region1Out8, Region2Value), the contents of the kernel's buffers followed through its three stretches
  (KernelStretch0, KernelStretch1, KernelStretch2), and its run with the result named (KernelRun, KernelValue).
-/
import proofs.«119634_j12043088298174_2_alg».proof.Defs
import proofs.«119634_j12043088298174_2_alg».proof.Proof.Gen.Kernel
import proofs.«119634_j12043088298174_2_alg».proof.Proof.Gen.KernelIdeal
import proofs.«119634_j12043088298174_2_alg».proof.Proof.Gen.ReferenceIdeal
import proofs.«119634_j12043088298174_2_alg».proof.Proof.Gen.Pre_finite_inputs
import proofs.«119634_j12043088298174_2_alg».proof.Proof.PatchedKernelFrame
import proofs.«119634_j12043088298174_2_alg».proof.Proof.KernelValue
import proofs.«119634_j12043088298174_2_alg».proof.Proof.RefValue
import proofs.«119634_j12043088298174_2_alg».proof.Proof.RefRun
import proofs.«119634_j12043088298174_2_alg».proof.Proof.SageAlgebra
import proofs.«119634_j12043088298174_2_alg».proof.Proof.FiniteInputs

noncomputable section

namespace Cert.Proof

open Idealize.ShloMosaic Idealize.SL.Sem

/-- the kernel as printed runs and leaves its arguments unchanged -/
theorem frame_kernel : Cert.frame_Kernel := fun m ρ _ => Cert.Kernel.Gen.frame m ρ

/-- so does the idealized kernel -/
theorem frame_kernelIdeal : Cert.frame_KernelIdeal := fun m ρ _ => Cert.KernelIdeal.Gen.frame m ρ

/-- and the idealized reference -/
theorem frame_referenceIdeal : Cert.frame_ReferenceIdeal := fun m ρ _ => Cert.Sage.RefRun.ref_frame m ρ

/-- From memories agreeing on the arguments both idealized programs end with the network of the arguments in their
    result arrays: the kernel's with the last projection before the last neighbour sum, which on finite inputs is the
    reference's order. -/
theorem algebraic : Cert.algebraic_KernelIdeal_ReferenceIdeal := by
  intro m ρ m' ρ' hpre hagree
  refine ⟨fun c => Cert.Sage.KV.kernelOut m c, Cert.Sage.KV.kernel_run m ρ, ?_⟩
  refine (θ_run (Cert.ReferenceIdeal.defs (F := Ideal)) _ _).mono (fun r h c => ⟨(h c).1.trans ?_, (h c).2⟩)
    (Cert.Sage.RefRun.ref_run Cert.Sage.Ref.ref_value m' ρ')
  obtain ⟨e0, e1, e2, e3, e4, e5, e6, e7, e8, e9, e10, e11⟩ := hagree c
  rw [e0, e1, e2, e3, e4, e5, e6, e7, e8, e9, e10, e11]
  obtain ⟨r0, r3, r4, r5, r6, r7, r8, _, r10, _⟩ := Cert.Sage.Finite.inputs_real _ _ _ _ _ _ _ _ _ _ _ _ (hpre c)
  exact (Cert.Sage.network_projFirst _ _ _ _ _ _ _ _ _ _ _ _ r0 r3 r4 r5 r6 r7 r8 r10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
